-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x23 : Shape := ⟨2, ![200000, 23]⟩
abbrev S2x6400000 : Shape := ⟨2, ![2, 6400000]⟩
abbrev S23x16 : Shape := ⟨2, ![23, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S200000x23 : S_.BroadcastsInDim S200000x23 (![] : Fin 0 → Fin S200000x23.rank)
  reducesTo_S200000x23_S_d0_1 : S200000x23.ReducesTo [0, 1] S_
  h_S_ : 0 < S_.numel
  bcast_S_S23x16 : S_.BroadcastsInDim S23x16 (![] : Fin 0 → Fin S23x16.rank)
  reducesTo_S23x16_S_d0_1 : S23x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S200000x23 .f32) (main_arg1 : IVec S2x6400000 32) (main_arg2 : FVec F S23x16 .f32) (main_arg3 : FVec F S16 .f32) (main_arg4 : FVec F S16x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S200000x23 .f32 := Host.absf main_arg0
  let main_cst : FVec F S_ .f32 := constant S_ .f32 0x7F800000#32
  let main_v1 : FVec F S200000x23 .f32 := broadcastInDim S200000x23 ![] bcast_S_S200000x23 main_cst
  let main_v2 : IVec S200000x23 1 := cmpf .olt main_v0 main_v1
  let main_c : IVec S_ 1 := constantI S_ 1 1#1
  let main_v3 : IVec S_ 1 := (fun x v => Host.reduce IntOp.andi x v reducesTo_S200000x23_S_d0_1 h_S_) main_v2 main_c
  let main_v4 : FVec F S23x16 .f32 := Host.absf main_arg2
  let main_cst_0 : FVec F S_ .f32 := constant S_ .f32 0x7F800000#32
  let main_v5 : FVec F S23x16 .f32 := broadcastInDim S23x16 ![] bcast_S_S23x16 main_cst_0
  let main_v6 : IVec S23x16 1 := cmpf .olt main_v4 main_v5
  let main_c_1 : IVec S_ 1 := constantI S_ 1 1#1
  let main_v7 : IVec S_ 1 := (fun x v => Host.reduce IntOp.andi x v reducesTo_S23x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S200000x23 : Shape := ⟨2, ![200000, 23]⟩
abbrev S2x6400000 : Shape := ⟨2, ![2, 6400000]⟩
abbrev S23x16 : Shape := ⟨2, ![23, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x23 : Shape := ⟨2, ![10000, 23]⟩
abbrev S10000x16 : Shape := ⟨2, ![10000, 16]⟩
abbrev S6600000x16 : Shape := ⟨2, ![6600000, 16]⟩
abbrev S1x16 : Shape := ⟨2, ![1, 16]⟩
abbrev S200000x32 : Shape := ⟨2, ![200000, 32]⟩
abbrev S10000x32 : Shape := ⟨2, ![10000, 32]⟩
abbrev S6600000x32 : Shape := ⟨2, ![6600000, 32]⟩
abbrev S1x32 : Shape := ⟨2, ![1, 32]⟩
abbrev S200000x1 : Shape := ⟨2, ![200000, 1]⟩
abbrev S10000x1 : Shape := ⟨2, ![10000, 1]⟩
abbrev S1x1 : Shape := ⟨2, ![1, 1]⟩

abbrev nBuf : Space → Nat
  | .hbm => 127
  | .vmem => 40
  | .smem => 0
  | _ => 0

abbrev bufTy : (tb : Table) → Fin (tcTables nBuf tb) → BufTy
  | .hbm, ⟨0, _⟩ => ⟨S200000x23, .f32⟩
  | .hbm, ⟨1, _⟩ => ⟨S2x6400000, .i32⟩
  | .hbm, ⟨2, _⟩ => ⟨S23x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S_, .i32⟩
  | .hbm, ⟨34, _⟩ => ⟨S6600000, .i32⟩
  | .hbm, ⟨35, _⟩ => ⟨S6600000, .i1⟩
  | .hbm, ⟨36, _⟩ => ⟨S_, .i32⟩
  | .hbm, ⟨37, _⟩ => ⟨S6600000, .i32⟩
  | .hbm, ⟨38, _⟩ => ⟨S6600000, .i32⟩
  | .hbm, ⟨39, _⟩ => ⟨S6600000, .i32⟩
  | .hbm, ⟨40, _⟩ => ⟨S6600000x1, .i32⟩
  | .hbm, ⟨41, _⟩ => ⟨S6600000, .f32⟩
  | .hbm, ⟨42, _⟩ => ⟨S_, .i32⟩
  | .hbm, ⟨43, _⟩ => ⟨S6600000, .i32⟩
  | .hbm, ⟨44, _⟩ => ⟨S6600000, .i1⟩
  | .hbm, ⟨45, _⟩ => ⟨S_, .i32⟩
  | .hbm, ⟨46, _⟩ => ⟨S6600000, .i32⟩
  | .hbm, ⟨47, _⟩ => ⟨S6600000, .i32⟩
  | .hbm, ⟨48, _⟩ => ⟨S6600000, .i32⟩
  | .hbm, ⟨49, _⟩ => ⟨S6600000x1, .i32⟩
  | .hbm, ⟨50, _⟩ => ⟨S6600000, .f32⟩
  | .hbm, ⟨51, _⟩ => ⟨S6600000, .f32⟩
  | .hbm, ⟨52, _⟩ => ⟨S200000x16, .f32⟩
  | .hbm, ⟨53, _⟩ => ⟨S_, .i32⟩
  | .hbm, ⟨54, _⟩ => ⟨S6600000, .i32⟩
  | .hbm, ⟨55, _⟩ => ⟨S6600000, .i1⟩
  | .hbm, ⟨56, _⟩ => ⟨S_, .i32⟩
  | .hbm, ⟨57, _⟩ => ⟨S6600000, .i32⟩
  | .hbm, ⟨58, _⟩ => ⟨S6600000, .i32⟩
  | .hbm, ⟨59, _⟩ => ⟨S6600000, .i32⟩
  | .hbm, ⟨60, _⟩ => ⟨S6600000x1, .i32⟩
  | .hbm, ⟨61, _⟩ => ⟨S6600000x16, .f32⟩
  | .hbm, ⟨62, _⟩ => ⟨S6600000x1, .f32⟩
  | .hbm, ⟨63, _⟩ => ⟨S6600000x16, .f32⟩
  | .hbm, ⟨64, _⟩ => ⟨S6600000x16, .f32⟩
  | .hbm, ⟨65, _⟩ => ⟨S_, .f32⟩
  | .hbm, ⟨66, _⟩ => ⟨S200000x16, .f32⟩
  | .hbm, ⟨67, _⟩ => ⟨S6600000x1, .i32⟩
  | .hbm, ⟨68, _⟩ => ⟨S200000x16, .f32⟩
  | .hbm, ⟨69, _⟩ => ⟨S1x16, .f32⟩
  | .hbm, ⟨70, _⟩ => ⟨S200000x16, .f32⟩
  | .hbm, ⟨71, _⟩ => ⟨S200000x32, .f32⟩
  | .hbm, ⟨72, _⟩ => ⟨S_, .i32⟩
  | .hbm, ⟨73, _⟩ => ⟨S6600000, .i32⟩
  | .hbm, ⟨74, _⟩ => ⟨S6600000, .i1⟩
  | .hbm, ⟨75, _⟩ => ⟨S_, .i32⟩
  | .hbm, ⟨76, _⟩ => ⟨S6600000, .i32⟩
  | .hbm, ⟨77, _⟩ => ⟨S6600000, .i32⟩
  | .hbm, ⟨78, _⟩ => ⟨S6600000, .i32⟩
  | .hbm, ⟨79, _⟩ => ⟨S6600000x1, .i32⟩
  | .hbm, ⟨80, _⟩ => ⟨S6600000x32, .f32⟩
  | .hbm, ⟨81, _⟩ => ⟨S6600000x1, .f32⟩
  | .hbm, ⟨82, _⟩ => ⟨S6600000x32, .f32⟩
  | .hbm, ⟨83, _⟩ => ⟨S6600000x32, .f32⟩
  | .hbm, ⟨84, _⟩ => ⟨S_, .f32⟩
  | .hbm, ⟨85, _⟩ => ⟨S200000x32, .f32⟩
  | .hbm, ⟨86, _⟩ => ⟨S6600000x1, .i32⟩
  | .hbm, ⟨87, _⟩ => ⟨S200000x32, .f32⟩
  | .hbm, ⟨88, _⟩ => ⟨S1x32, .f32⟩
  | .hbm, ⟨89, _⟩ => ⟨S200000x32, .f32⟩
  | .hbm, ⟨90, _⟩ => ⟨S200000x32, .f32⟩
  | .hbm, ⟨91, _⟩ => ⟨S_, .i32⟩
  | .hbm, ⟨92, _⟩ => ⟨S6600000, .i32⟩
  | .hbm, ⟨93, _⟩ => ⟨S6600000, .i1⟩
  | .hbm, ⟨94, _⟩ => ⟨S_, .i32⟩
  | .hbm, ⟨95, _⟩ => ⟨S6600000, .i32⟩
  | .hbm, ⟨96, _⟩ => ⟨S6600000, .i32⟩
  | .hbm, ⟨97, _⟩ => ⟨S6600000, .i32⟩
  | .hbm, ⟨98, _⟩ => ⟨S6600000x1, .i32⟩
  | .hbm, ⟨99, _⟩ => ⟨S6600000x32, .f32⟩
  | .hbm, ⟨100, _⟩ => ⟨S6600000x1, .f32⟩
  | .hbm, ⟨101, _⟩ => ⟨S6600000x32, .f32⟩
  | .hbm, ⟨102, _⟩ => ⟨S6600000x32, .f32⟩
  | .hbm, ⟨103, _⟩ => ⟨S_, .f32⟩
  | .hbm, ⟨104, _⟩ => ⟨S200000x32, .f32⟩
  | .hbm, ⟨105, _⟩ => ⟨S6600000x1, .i32⟩
  | .hbm, ⟨106, _⟩ => ⟨S200000x32, .f32⟩
  | .hbm, ⟨107, _⟩ => ⟨S1x32, .f32⟩
  | .hbm, ⟨108, _⟩ => ⟨S200000x32, .f32⟩
  | .hbm, ⟨109, _⟩ => ⟨S200000x1, .f32⟩
  | .hbm, ⟨110, _⟩ => ⟨S_, .i32⟩
  | .hbm, ⟨111, _⟩ => ⟨S6600000, .i32⟩
  | .hbm, ⟨112, _⟩ => ⟨S6600000, .i1⟩
  | .hbm, ⟨113, _⟩ => ⟨S_, .i32⟩
  | .hbm, ⟨114, _⟩ => ⟨S6600000, .i32⟩
  | .hbm, ⟨115, _⟩ => ⟨S6600000, .i32⟩
  | .hbm, ⟨116, _⟩ => ⟨S6600000, .i32⟩
  | .hbm, ⟨117, _⟩ => ⟨S6600000x1, .i32⟩
  | .hbm, ⟨118, _⟩ => ⟨S6600000x1, .f32⟩
  | .hbm, ⟨119, _⟩ => ⟨S6600000x1, .f32⟩
  | .hbm, ⟨120, _⟩ => ⟨S6600000x1, .f32⟩
  | .hbm, ⟨121, _⟩ => ⟨S_, .f32⟩
  | .hbm, ⟨122, _⟩ => ⟨S200000x1, .f32⟩
  | .hbm, ⟨123, _⟩ => ⟨S6600000x1, .i32⟩
  | .hbm, ⟨124, _⟩ => ⟨S200000x1, .f32⟩
  | .hbm, ⟨125, _⟩ => ⟨S1x1, .f32⟩
  | .hbm, ⟨126, _⟩ => ⟨S200000x1, .f32⟩
  | .local _ .vmem, ⟨0, _⟩ => ⟨S10000x23, .f32⟩
  | .local _ .vmem, ⟨1, _⟩ => ⟨S10000x23, .f32⟩
  | .local _ .vmem, ⟨2, _⟩ => ⟨S23x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x1, .f32⟩
  | .local _ .vmem, ⟨33, _⟩ => ⟨S10000x1, .f32⟩
  | .local _ .vmem, ⟨34, _⟩ => ⟨S10000x1, .f32⟩
  | .local _ .vmem, ⟨35, _⟩ => ⟨S10000x1, .f32⟩
  | .local _ .vmem, ⟨36, _⟩ => ⟨S10000x1, .f32⟩
  | .local _ .vmem, ⟨37, _⟩ => ⟨S1x1, .f32⟩
  | .local _ .vmem, ⟨38, _⟩ => ⟨S10000x1, .f32⟩
  | .local _ .vmem, ⟨39, _⟩ => ⟨S10000x1, .f32⟩
  | _, _ => ⟨S200000x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S23x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x23_S10000x23_0_0 : ∀ a, (![0, 0] : Fin 2 → Nat) a + S10000x23.size a ≤ S10000x23.size a
  h_S10000x23 : 0 < S10000x23.numel
  bitsLt_bf16_f32 : FTy.bits .bf16 < FTy.bits .f32
  inb_S23x16_S23x16_0_0 : ∀ a, (![0, 0] : Fin 2 → Nat) a + S23x16.size a ≤ S23x16.size a
  h_S23x16 : 0 < S23x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S200000x1 : S_.BroadcastsInDim S200000x1 (![] : Fin 0 → Fin S200000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x23_S23x16_S10000x16_1_0_0_1_n_n_wf : DotDims.WF S10000x23 S23x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x32_S10000x32_1_0_0_1_n_n_wf : DotDims.WF S10000x16 S16x32 S10000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x23.size a ≤ S200000x23.size a
  hwx0_0 : ∀ i : grid0.Coords, EltTy.bits .f32 = 32 ∨ (Rect.block (s := S200000x23) S10000x23.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x16.size a ≤ S23x16.size a
  hwx0_1 : ∀ i : grid0.Coords, EltTy.bits .f32 = 32 ∨ (Rect.block (s := S23x16) S23x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S200000x16.size a
  hwx1_2 : ∀ i : grid1.Coords, EltTy.bits .f32 = 32 ∨ (Rect.block (s := S200000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S200000x32.size a
  hwx2_2 : ∀ i : grid2.Coords, EltTy.bits .f32 = 32 ∨ (Rect.block (s := S200000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S200000x32.size a
  hwx3_0 : ∀ i : grid3.Coords, EltTy.bits .f32 = 32 ∨ (Rect.block (s := S200000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S200000x32.size a
  hwx3_2 : ∀ i : grid3.Coords, EltTy.bits .f32 = 32 ∨ (Rect.block (s := S200000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S200000x32.size a
  hwx4_0 : ∀ i : grid4.Coords, EltTy.bits .f32 = 32 ∨ (Rect.block (s := S200000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S200000x32.size a
  hwx4_2 : ∀ i : grid4.Coords, EltTy.bits .f32 = 32 ∨ (Rect.block (s := S200000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S200000x32.size a
  hwx5_0 : ∀ i : grid5.Coords, EltTy.bits .f32 = 32 ∨ (Rect.block (s := S200000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S200000x32.size a
  hwx5_2 : ∀ i : grid5.Coords, EltTy.bits .f32 = 32 ∨ (Rect.block (s := S200000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S200000x32.size a
  hwx6_0 : ∀ i : grid6.Coords, EltTy.bits .f32 = 32 ∨ (Rect.block (s := S200000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S200000x1.size a
  hwx6_2 : ∀ i : grid6.Coords, EltTy.bits .f32 = 32 ∨ (Rect.block (s := S200000x1) S10000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x1.size a ≤ S200000x1.size a
  hwx7_0 : ∀ i : grid7.Coords, EltTy.bits .f32 = 32 ∨ (Rect.block (s := S200000x1) S10000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S200000x1.size a
  hwx7_2 : ∀ i : grid7.Coords, EltTy.bits .f32 = 32 ∨ (Rect.block (s := S200000x1) S10000x1.size (cc7_transform_2 i) (hinb7_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x23_S23x16_S10000x16_1_0_0_1_n_n : DotDims S10000x23 S23x16 S10000x16 where
  lhsContracting := [1]
  rhsContracting := [0]
  lhsNonContracting := [0]
  rhsNonContracting := [1]
  lhsBatch := []
  rhsBatch := []
  wf := dot_S10000x23_S23x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

abbrev win0_0 : Pipeline.Window sig grid0 :=
  Pipeline.Window.ofSpec (Memref.whole main_arg0) S10000x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S23x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S10000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S10000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S200000x23 : Shape := ⟨2, ![200000, 23]⟩
abbrev S2x6400000 : Shape := ⟨2, ![2, 6400000]⟩
abbrev S23x16 : Shape := ⟨2, ![23, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x32 : Shape := ⟨2, ![200000, 32]⟩
abbrev S6600000x32 : Shape := ⟨2, ![6600000, 32]⟩
abbrev S1x32 : Shape := ⟨2, ![1, 32]⟩
abbrev S200000x1 : Shape := ⟨2, ![200000, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S200000x23, .f32⟩
  | 1 => ⟨S2x6400000, .i32⟩
  | 2 => ⟨S23x16, .f32⟩
  | 3 => ⟨S16, .f32⟩
  | 4 => ⟨S16x32, .f32⟩
  | 5 => ⟨S32, .f32⟩
  | 6 => ⟨S32x32, .f32⟩
  | 7 => ⟨S32, .f32⟩
  | 8 => ⟨S32x1, .f32⟩
  | 9 => ⟨S1, .f32⟩
  | 10 => ⟨S200000, .i32⟩
  | 11 => ⟨S1x6400000, .i32⟩
  | 12 => ⟨S6400000, .i32⟩
  | 13 => ⟨S6600000, .i32⟩
  | 14 => ⟨S1x6400000, .i32⟩
  | 15 => ⟨S6400000, .i32⟩
  | 16 => ⟨S6600000, .i32⟩
  | 17 => ⟨S_, .f32⟩
  | 18 => ⟨S6600000, .f32⟩
  | 19 => ⟨S_, .f32⟩
  | 20 => ⟨S200000, .f32⟩
  | 21 => ⟨S6600000x1, .i32⟩
  | 22 => ⟨S200000, .f32⟩
  | 23 => ⟨S_, .f32⟩
  | 24 => ⟨S200000, .f32⟩
  | 25 => ⟨S200000, .i1⟩
  | 26 => ⟨S_, .f32⟩
  | 27 => ⟨S200000, .f32⟩
  | 28 => ⟨S200000, .f32⟩
  | 29 => ⟨S_, .f32⟩
  | 30 => ⟨S_, .f32⟩
  | 31 => ⟨S200000, .f32⟩
  | 32 => ⟨S200000, .f32⟩
  | 33 => ⟨S_, .i32⟩
  | 34 => ⟨S6600000, .i32⟩
  | 35 => ⟨S6600000, .i1⟩
  | 36 => ⟨S_, .i32⟩
  | 37 => ⟨S6600000, .i32⟩
  | 38 => ⟨S6600000, .i32⟩
  | 39 => ⟨S6600000, .i32⟩
  | 40 => ⟨S6600000x1, .i32⟩
  | 41 => ⟨S6600000, .f32⟩
  | 42 => ⟨S_, .i32⟩
  | 43 => ⟨S6600000, .i32⟩
  | 44 => ⟨S6600000, .i1⟩
  | 45 => ⟨S_, .i32⟩
  | 46 => ⟨S6600000, .i32⟩
  | 47 => ⟨S6600000, .i32⟩
  | 48 => ⟨S6600000, .i32⟩
  | 49 => ⟨S6600000x1, .i32⟩
  | 50 => ⟨S6600000, .f32⟩
  | 51 => ⟨S6600000, .f32⟩
  | 52 => ⟨S200000x16, .f32⟩
  | 53 => ⟨S_, .i32⟩
  | 54 => ⟨S6600000, .i32⟩
  | 55 => ⟨S6600000, .i1⟩
  | 56 => ⟨S_, .i32⟩
  | 57 => ⟨S6600000, .i32⟩
  | 58 => ⟨S6600000, .i32⟩
  | 59 => ⟨S6600000, .i32⟩
  | 60 => ⟨S6600000x1, .i32⟩
  | 61 => ⟨S6600000x16, .f32⟩
  | 62 => ⟨S6600000x1, .f32⟩
  | 63 => ⟨S6600000x16, .f32⟩
  | 64 => ⟨S6600000x16, .f32⟩
  | 65 => ⟨S_, .f32⟩
  | 66 => ⟨S200000x16, .f32⟩
  | 67 => ⟨S6600000x1, .i32⟩
  | 68 => ⟨S200000x16, .f32⟩
  | 69 => ⟨S1x16, .f32⟩
  | 70 => ⟨S200000x16, .f32⟩
  | 71 => ⟨S200000x16, .f32⟩
  | 72 => ⟨S_, .f32⟩
  | 73 => ⟨S200000x16, .f32⟩
  | 74 => ⟨S200000x16, .f32⟩
  | 75 => ⟨S200000x32, .f32⟩
  | 76 => ⟨S_, .i32⟩
  | 77 => ⟨S6600000, .i32⟩
  | 78 => ⟨S6600000, .i1⟩
  | 79 => ⟨S_, .i32⟩
  | 80 => ⟨S6600000, .i32⟩
  | 81 => ⟨S6600000, .i32⟩
  | 82 => ⟨S6600000, .i32⟩
  | 83 => ⟨S6600000x1, .i32⟩
  | 84 => ⟨S6600000x32, .f32⟩
  | 85 => ⟨S6600000x1, .f32⟩
  | 86 => ⟨S6600000x32, .f32⟩
  | 87 => ⟨S6600000x32, .f32⟩
  | 88 => ⟨S_, .f32⟩
  | 89 => ⟨S200000x32, .f32⟩
  | 90 => ⟨S6600000x1, .i32⟩
  | 91 => ⟨S200000x32, .f32⟩
  | 92 => ⟨S1x32, .f32⟩
  | 93 => ⟨S200000x32, .f32⟩
  | 94 => ⟨S200000x32, .f32⟩
  | 95 => ⟨S_, .f32⟩
  | 96 => ⟨S200000x32, .f32⟩
  | 97 => ⟨S200000x32, .f32⟩
  | 98 => ⟨S200000x32, .f32⟩
  | 99 => ⟨S_, .i32⟩
  | 100 => ⟨S6600000, .i32⟩
  | 101 => ⟨S6600000, .i1⟩
  | 102 => ⟨S_, .i32⟩
  | 103 => ⟨S6600000, .i32⟩
  | 104 => ⟨S6600000, .i32⟩
  | 105 => ⟨S6600000, .i32⟩
  | 106 => ⟨S6600000x1, .i32⟩
  | 107 => ⟨S6600000x32, .f32⟩
  | 108 => ⟨S6600000x1, .f32⟩
  | 109 => ⟨S6600000x32, .f32⟩
  | 110 => ⟨S6600000x32, .f32⟩
  | 111 => ⟨S_, .f32⟩
  | 112 => ⟨S200000x32, .f32⟩
  | 113 => ⟨S6600000x1, .i32⟩
  | 114 => ⟨S200000x32, .f32⟩
  | 115 => ⟨S1x32, .f32⟩
  | 116 => ⟨S200000x32, .f32⟩
  | 117 => ⟨S200000x32, .f32⟩
  | 118 => ⟨S200000x1, .f32⟩
  | 119 => ⟨S_, .i32⟩
  | 120 => ⟨S6600000, .i32⟩
  | 121 => ⟨S6600000, .i1⟩
  | 122 => ⟨S_, .i32⟩
  | 123 => ⟨S6600000, .i32⟩
  | 124 => ⟨S6600000, .i32⟩
  | 125 => ⟨S6600000, .i32⟩
  | 126 => ⟨S6600000x1, .i32⟩
  | 127 => ⟨S6600000x1, .f32⟩
  | _ => ⟨S200000x23, .f32⟩

abbrev hbmTy0_1 (i : Nat) : BufTy := match i % 128 with
  | 0 => ⟨S6600000x1, .f32⟩
  | 1 => ⟨S6600000x1, .f32⟩
  | 2 => ⟨S_, .f32⟩
  | 3 => ⟨S200000x1, .f32⟩
  | 4 => ⟨S6600000x1, .i32⟩
  | 5 => ⟨S200000x1, .f32⟩
  | 6 => ⟨S1x1, .f32⟩
  | 7 => ⟨S200000x1, .f32⟩
  | 8 => ⟨S200000x1, .f32⟩
  | 9 => ⟨S200000x1, .f32⟩
  | 10 => ⟨S200000x1, .f32⟩
  | 11 => ⟨S_, .f32⟩
  | 12 => ⟨S200000x1, .f32⟩
  | 13 => ⟨S200000x1, .f32⟩
  | 14 => ⟨S_, .f32⟩
  | 15 => ⟨S200000x1, .f32⟩
  | 16 => ⟨S200000x1, .f32⟩
  | _ => ⟨S200000x23, .f32⟩

abbrev hbmTy (i : Nat) : BufTy := match i / 128 with
  | 0 => hbmTy0_0 i
  | 1 => hbmTy0_1 i
  | _ => ⟨S200000x23, .f32⟩

abbrev bufTy : (tb : Table) → Fin (tcTables nBuf tb) → BufTy
  | .hbm, ⟨i, _⟩ => hbmTy i
  | _, _ => ⟨S200000x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x23_S23x16_S200000x16_1_0_0_1_n_n_wf : DotDims.WF S200000x23 S23x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x32_S200000x32_1_0_0_1_n_n_wf : DotDims.WF S200000x16 S16x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S200000x32_S32x32_S200000x32_1_0_0_1_n_n_wf : DotDims.WF S200000x32 S32x32 S200000x32 [1] [0] [0] [1] [] []
  dot_S200000x32_S32x1_S200000x1_1_0_0_1_n_n_wf : DotDims.WF S200000x32 S32x1 S200000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x23_S23x16_S200000x16_1_0_0_1_n_n : DotDims S200000x23 S23x16 S200000x16 where
  lhsContracting := [1]
  rhsContracting := [0]
  lhsNonContracting := [0]
  rhsNonContracting := [1]
  lhsBatch := []
  rhsBatch := []
  wf := dot_S200000x23_S23x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

class Facts : Prop extends Facts₀ where

variable [Facts]
-- ==== Proof.KernelRun.lean ====
/-
  The idealized kernel's run with its result NAMED. Every weakly fair execution of the program ends with each unscoped
  buffer at the contents the fold of segment boundaries leaves there: the host stretches apply their operations, each of
  the eight regions leaves its output array at what its grid points wrote back. So the result buffer ends at the last
  boundary's contents, and the ten argument arrays end as launched.
-/
import proofs.«164621_j24919400251445_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last segment boundary's contents, the arguments unchanged. -/
theorem run_result : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunValue

end
-- ==== Proof.Dense0.lean ====
/-
  Region 0: one layer's linear map, blocked over the node axis. Grid point t stages rows 10000·t … 10000·t + 9999 of the
  [200000, 23] input and the whole [23, 16] weight, and writes rows 10000·t … of the [200000, 16] output with the block's
  matrix product into a zero accumulator. A change of float format is the identity on the extended reals, so entry (r, d)
  of a block's product is the sum over k of input (r, k) times weight (k, d); the twenty blocks tile the rows, hence the
  output array ends as the whole [200000, 23] × [23, 16] product — the same sums the host's dot_general denotes.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products at an index -/

/-- Row (j 0) of the left factor at column k, and row k of the right factor at column (j 1): inside a block … -/
abbrev lk (j : S10000x16.Idx) (k : Fin 23) : S10000x23.Idx := fun a => match a with
  | ⟨0, _⟩ => ⟨(j 0).val, (j 0).isLt⟩
  | ⟨1, _⟩ => ⟨k.val, k.isLt⟩
abbrev rk (j : S10000x16.Idx) (k : Fin 23) : S23x16.Idx := fun a => match a with
  | ⟨0, _⟩ => ⟨k.val, k.isLt⟩
  | ⟨1, _⟩ => ⟨(j 1).val, (j 1).isLt⟩
/-- … and in the whole arrays. -/
abbrev lK (i : S200000x16.Idx) (k : Fin 23) : S200000x23.Idx := fun a => match a with
  | ⟨0, _⟩ => ⟨(i 0).val, (i 0).isLt⟩
  | ⟨1, _⟩ => ⟨k.val, k.isLt⟩
abbrev rK (i : S200000x16.Idx) (k : Fin 23) : S23x16.Idx := fun a => match a with
  | ⟨0, _⟩ => ⟨k.val, k.isLt⟩
  | ⟨1, _⟩ => ⟨(i 1).val, (i 1).isLt⟩

theorem blk_lhs0 (i : S10000x16.Idx) (q : (dot_S10000x23_S23x16_S10000x16_1_0_0_1_n_n).contr.Idx) : ((dot_S10000x23_S23x16_S10000x16_1_0_0_1_n_n).lhsIdx i q 0).val = (i 0).val := by
  unfold DotDims.lhsIdx
  rw [dif_neg (show ¬(0 : Fin S10000x23.rank) ∈ (dot_S10000x23_S23x16_S10000x16_1_0_0_1_n_n).lhsBatch by decide), dif_pos (show (0 : Fin S10000x23.rank) ∈ (dot_S10000x23_S23x16_S10000x16_1_0_0_1_n_n).lhsNonContracting by decide)]
  rfl
theorem blk_lhs1 (i : S10000x16.Idx) (q : (dot_S10000x23_S23x16_S10000x16_1_0_0_1_n_n).contr.Idx) : ((dot_S10000x23_S23x16_S10000x16_1_0_0_1_n_n).lhsIdx i q 1).val = (q ⟨0, by decide⟩).val :=
  (dot_S10000x23_S23x16_S10000x16_1_0_0_1_n_n).lhsIdx_val_of_single rfl i q
theorem blk_rhs0 (i : S10000x16.Idx) (q : (dot_S10000x23_S23x16_S10000x16_1_0_0_1_n_n).contr.Idx) : ((dot_S10000x23_S23x16_S10000x16_1_0_0_1_n_n).rhsIdx i q 0).val = (q ⟨0, by decide⟩).val :=
  (dot_S10000x23_S23x16_S10000x16_1_0_0_1_n_n).rhsIdx_val_of_single rfl i q
theorem blk_rhs1 (i : S10000x16.Idx) (q : (dot_S10000x23_S23x16_S10000x16_1_0_0_1_n_n).contr.Idx) : ((dot_S10000x23_S23x16_S10000x16_1_0_0_1_n_n).rhsIdx i q 1).val = (i 1).val := by
  unfold DotDims.rhsIdx
  rw [dif_neg (show ¬(1 : Fin S23x16.rank) ∈ (dot_S10000x23_S23x16_S10000x16_1_0_0_1_n_n).rhsBatch by decide), dif_pos (show (1 : Fin S23x16.rank) ∈ (dot_S10000x23_S23x16_S10000x16_1_0_0_1_n_n).rhsNonContracting by decide)]
  rfl

theorem arr_lhs0 (i : S200000x16.Idx) (q : (Cert.ReferenceIdeal.dot_S200000x23_S23x16_S200000x16_1_0_0_1_n_n).contr.Idx) : ((Cert.ReferenceIdeal.dot_S200000x23_S23x16_S200000x16_1_0_0_1_n_n).lhsIdx i q 0).val = (i 0).val := by
  unfold DotDims.lhsIdx
  rw [dif_neg (show ¬(0 : Fin S200000x23.rank) ∈ (Cert.ReferenceIdeal.dot_S200000x23_S23x16_S200000x16_1_0_0_1_n_n).lhsBatch by decide), dif_pos (show (0 : Fin S200000x23.rank) ∈ (Cert.ReferenceIdeal.dot_S200000x23_S23x16_S200000x16_1_0_0_1_n_n).lhsNonContracting by decide)]
  rfl
theorem arr_lhs1 (i : S200000x16.Idx) (q : (Cert.ReferenceIdeal.dot_S200000x23_S23x16_S200000x16_1_0_0_1_n_n).contr.Idx) : ((Cert.ReferenceIdeal.dot_S200000x23_S23x16_S200000x16_1_0_0_1_n_n).lhsIdx i q 1).val = (q ⟨0, by decide⟩).val :=
  (Cert.ReferenceIdeal.dot_S200000x23_S23x16_S200000x16_1_0_0_1_n_n).lhsIdx_val_of_single rfl i q
theorem arr_rhs0 (i : S200000x16.Idx) (q : (Cert.ReferenceIdeal.dot_S200000x23_S23x16_S200000x16_1_0_0_1_n_n).contr.Idx) : ((Cert.ReferenceIdeal.dot_S200000x23_S23x16_S200000x16_1_0_0_1_n_n).rhsIdx i q 0).val = (q ⟨0, by decide⟩).val :=
  (Cert.ReferenceIdeal.dot_S200000x23_S23x16_S200000x16_1_0_0_1_n_n).rhsIdx_val_of_single rfl i q
theorem arr_rhs1 (i : S200000x16.Idx) (q : (Cert.ReferenceIdeal.dot_S200000x23_S23x16_S200000x16_1_0_0_1_n_n).contr.Idx) : ((Cert.ReferenceIdeal.dot_S200000x23_S23x16_S200000x16_1_0_0_1_n_n).rhsIdx i q 1).val = (i 1).val := by
  unfold DotDims.rhsIdx
  rw [dif_neg (show ¬(1 : Fin S23x16.rank) ∈ (Cert.ReferenceIdeal.dot_S200000x23_S23x16_S200000x16_1_0_0_1_n_n).rhsBatch by decide), dif_pos (show (1 : Fin S23x16.rank) ∈ (Cert.ReferenceIdeal.dot_S200000x23_S23x16_S200000x16_1_0_0_1_n_n).rhsNonContracting by decide)]
  rfl

/-- The body's stored value at (r, d): the sum over k of the loaded input block at (r, k) times the weight at (k, d). -/
theorem pay_apply (x0 : Vec Ideal S10000x23 .f32) (x1 : Vec Ideal S23x16 .f32) (j : S10000x16.Idx) :
    k0_pay1 (F := Ideal) x0 x1 j = ∑ k : Fin 23, x0 (lk j k) * x1 (rk j k) := by
  unfold k0_pay1
  try simp only [shapeCast_self]
  refine (Ideal.matmul_constant_zero_apply (dot_S10000x23_S23x16_S10000x16_1_0_0_1_n_n) none _ _ j).trans ?_
  rw [← Equiv.sum_comp (ValueIdx.contrEquiv1 (dot_S10000x23_S23x16_S10000x16_1_0_0_1_n_n) 23 rfl rfl).symm]
  refine Finset.sum_congr rfl fun k _ => ?_
  have hk := ValueIdx.contrEquiv1_symm_val (dot_S10000x23_S23x16_S10000x16_1_0_0_1_n_n) 23 rfl rfl k
  have el : (dot_S10000x23_S23x16_S10000x16_1_0_0_1_n_n).lhsIdx j ((ValueIdx.contrEquiv1 (dot_S10000x23_S23x16_S10000x16_1_0_0_1_n_n) 23 rfl rfl).symm k) = lk j k := funext fun a => Fin.ext (by
    match a with
    | ⟨0, _⟩ => exact blk_lhs0 _ _
    | ⟨1, _⟩ => exact (blk_lhs1 _ _).trans hk)
  have er : (dot_S10000x23_S23x16_S10000x16_1_0_0_1_n_n).rhsIdx j ((ValueIdx.contrEquiv1 (dot_S10000x23_S23x16_S10000x16_1_0_0_1_n_n) 23 rfl rfl).symm k) = rk j k := funext fun a => Fin.ext (by
    match a with
    | ⟨0, _⟩ => exact (blk_rhs0 _ _).trans hk
    | ⟨1, _⟩ => exact blk_rhs1 _ _)
  rw [el, er]
  rfl

/-- The host's product of two whole arrays at (r, d): the same sum. -/
theorem prod_apply (X : FVec Ideal S200000x23 .f32) (W : FVec Ideal S23x16 .f32) (i : S200000x16.Idx) :
    Host.dotGeneral (F := Ideal) (φ₁ := .f32) (φ₂ := .f32) (Cert.ReferenceIdeal.dot_S200000x23_S23x16_S200000x16_1_0_0_1_n_n) none X W i = ∑ k : Fin 23, X (lK i k) * W (rK i k) := by
  simp only [Host.dotGeneral]
  rw [Ideal.dotGeneral_apply]
  rw [← Equiv.sum_comp (ValueIdx.contrEquiv1 (Cert.ReferenceIdeal.dot_S200000x23_S23x16_S200000x16_1_0_0_1_n_n) 23 rfl rfl).symm]
  refine Finset.sum_congr rfl fun k _ => ?_
  have hk := ValueIdx.contrEquiv1_symm_val (Cert.ReferenceIdeal.dot_S200000x23_S23x16_S200000x16_1_0_0_1_n_n) 23 rfl rfl k
  have el : (Cert.ReferenceIdeal.dot_S200000x23_S23x16_S200000x16_1_0_0_1_n_n).lhsIdx i ((ValueIdx.contrEquiv1 (Cert.ReferenceIdeal.dot_S200000x23_S23x16_S200000x16_1_0_0_1_n_n) 23 rfl rfl).symm k) = lK i k := funext fun a => Fin.ext (by
    match a with
    | ⟨0, _⟩ => exact arr_lhs0 _ _
    | ⟨1, _⟩ => exact (arr_lhs1 _ _).trans hk)
  have er : (Cert.ReferenceIdeal.dot_S200000x23_S23x16_S200000x16_1_0_0_1_n_n).rhsIdx i ((ValueIdx.contrEquiv1 (Cert.ReferenceIdeal.dot_S200000x23_S23x16_S200000x16_1_0_0_1_n_n) 23 rfl rfl).symm k) = rK i k := funext fun a => Fin.ext (by
    match a with
    | ⟨0, _⟩ => exact (arr_rhs0 _ _).trans hk
    | ⟨1, _⟩ => exact arr_rhs1 _ _)
  rw [el, er]

/-! ## From blocks to the array -/

/-- The printed index maps over the grid: the input and the output move together along the rows, the weight stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some point's. -/
theorem idx_onto : ∀ (q0 : Fin 20) (q1 : Fin 1), ∃ t : Fin cfg0.N, win0_2.index t = ![q0.val + 0, q1.val + 0] :=
  (by decide +kernel : ∀ (q0 : Fin 20) (q1 : Fin 1), ∃ t : Fin grid0.N, win0_2.index t = ![q0.val + 0, q1.val + 0])

/-- An input block's element is the array's element at block index × block size + the coordinate inside the block. -/
theorem read_in (c : Dev nD) (t : Fin cfg0.N) (y : S10000x23.Idx) :
    iblk0 V c 0 t y = V c main_arg0 (((cfg0.win 0).blk t).view.emb y) := rfl
theorem read_w (c : Dev nD) (t : Fin cfg0.N) (y : S23x16.Idx) :
    iblk0 V c 1 t y = V c main_arg2 (((cfg0.win 1).blk t).view.emb y) := rfl

/-- What point t writes back is block t of the whole product of the region's two input arrays. -/
theorem flushed_eq (c : Dev nD) (t : Fin cfg0.N) :
    (dat0 V c).flushed 2 t = ((cfg0.win 2).blk t).view.read (Elt Ideal)
      (Host.dotGeneral (F := Ideal) (φ₁ := .f32) (φ₂ := .f32) (Cert.ReferenceIdeal.dot_S200000x23_S23x16_S200000x16_1_0_0_1_n_n) none (V c main_arg0 : FVec Ideal S200000x23 .f32) (V c main_arg2 : FVec Ideal S23x16 .f32)) := by
  show (cfg0.win 2).cut (grid0.coords t) ((dat0 V c).after 2 t) = _
  rw [after0_2]
  unfold out0_2
  rw [View.canon_unit_zero hz]
  simp only [View.ld_unit_zero (S := S10000x23) hz, View.ld_unit_zero (S := S23x16) hz]
  obtain ⟨e0, e1, e2, e3, e4⟩ := idx_facts t
  funext j
  show k0_pay1 (F := Ideal) (iblk0 V c 0 t) (iblk0 V c 1 t) j
    = Host.dotGeneral (F := Ideal) (φ₁ := .f32) (φ₂ := .f32) (Cert.ReferenceIdeal.dot_S200000x23_S23x16_S200000x16_1_0_0_1_n_n) none (V c main_arg0 : FVec Ideal S200000x23 .f32) (V c main_arg2 : FVec Ideal S23x16 .f32) (((cfg0.win 2).blk t).view.emb j)
  refine (pay_apply (iblk0 V c 0 t) (iblk0 V c 1 t) j).trans ?_
  refine Eq.trans ?_ (prod_apply (V c main_arg0) (V c main_arg2) (((cfg0.win 2).blk t).view.emb j)).symm
  refine Finset.sum_congr rfl fun k _ => ?_
  have h0 : iblk0 V c 0 t (lk j k) = V c main_arg0 (lK (((cfg0.win 2).blk t).view.emb j) k) := by
    rw [read_in]
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 23 + 1 * k.val = k.val; omega
  have h1 : iblk0 V c 1 t (rk j k) = V c main_arg2 (rK (((cfg0.win 2).blk t).view.emb j) k) := by
    rw [read_w]
    refine congrArg (V c main_arg2) (funext fun a => Fin.ext ?_)
    match a with
    | ⟨0, _⟩ => show win0_1.index t (0 : Fin 2) * 23 + 1 * k.val = k.val; omega
    | ⟨1, _⟩ => show win0_1.index t (1 : Fin 2) * 16 + 1 * (j 1).val = win0_2.index t (1 : Fin 2) * 16 + 1 * (j 1).val; omega
  rw [h0, h1]

/-- An index of the output array lies in point t's block iff its row lies in that block's row range. -/
theorem mem_blk (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v31).slice (win0_2.rect t)).set ↔ _
  rw [View.set_slice_whole, Rect.mem_set_unit]
  exact Iff.rfl

/-- The twenty row blocks cover the output array: row r is in block r / 10000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  obtain ⟨t, ht⟩ := idx_onto ⟨(i 0).val / 10000, by omega⟩ ⟨(i 1).val / 16, by omega⟩
  have q0 : win0_2.index t (0 : Fin 2) = (i 0).val / 10000 + 0 := congrFun ht 0
  have q1 : win0_2.index t (1 : Fin 2) = (i 1).val / 16 + 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The region's output array after the run: the whole product of its two input arrays as the region found them. -/
theorem final (c : Dev nD) : (dat0 V c).arrAt 2 cfg0.N
    = Host.dotGeneral (F := Ideal) (φ₁ := .f32) (φ₂ := .f32) (Cert.ReferenceIdeal.dot_S200000x23_S23x16_S200000x16_1_0_0_1_n_n) none (V c main_arg0 : FVec Ideal S200000x23 .f32) (V c main_arg2 : FVec Ideal S23x16 .f32) :=
  (dat0 V c).arrAt_eq_of_cover 2 _ (fun t _ => flushed_eq V c t) cover

end Cert.KernelIdeal.Dense0

end
-- ==== Proof.Act1.lean ====
/-
  Region 1: one layer's bias and activation, blocked over the node axis. Grid point t stages rows 10000·t … 10000·t + 9999 of
  the aggregated [200000, 16] array and the whole [1, 16] bias row, and writes the same rows of the [200000, 16] output: at
  (r, d) the aggregated value plus the bias at d, then the maximum of the sum and zero. The twenty blocks tile the rows, so the output array ends as
  that pointwise function of the whole aggregated array and the bias row.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Act1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column (j 1): inside a block … -/
abbrev b1 (j : S10000x16.Idx) : S1x16.Idx := fun a => match a with
  | ⟨0, _⟩ => ⟨0, Nat.one_pos⟩
  | ⟨1, _⟩ => ⟨(j 1).val, (j 1).isLt⟩
/-- … and in the whole array. -/
abbrev B1 (i : S200000x16.Idx) : S1x16.Idx := fun a => match a with
  | ⟨0, _⟩ => ⟨0, Nat.one_pos⟩
  | ⟨1, _⟩ => ⟨(i 1).val, (i 1).isLt⟩

/-- The whole-array function the region computes, in the host's operations. -/
abbrev G (A : FVec Ideal S200000x16 .f32) (B : FVec Ideal S1x16 .f32) : FVec Ideal S200000x16 .f32 :=
  maximumf (addf A (broadcastInDim S200000x16 ![0, 1] Cert.ReferenceIdeal.Facts₀.bcast_S1x16_S200000x16_0_1 B)) (broadcastInDim S200000x16 ![] Cert.ReferenceIdeal.Facts₀.bcast_S_S200000x16 (constant (F := Ideal) S_ .f32 0x00000000#32))

/-- The body's stored value at (r, d). -/
theorem pay_apply (x0 : Vec Ideal S10000x16 .f32) (x1 : Vec Ideal S1x16 .f32) (j : S10000x16.Idx) :
    k1_pay1 (F := Ideal) x0 x1 j = FloatOps.maximumf (FloatOps.addf (F := Ideal) (φ := .f32) (x0 j) (x1 (b1 j))) (FloatOps.ofBits (F := Ideal) .f32 0x00000000#32) := by
  unfold k1_pay1
  simp only [shapeCast_self]
  have hb : broadcastTo S10000x16 x1 broadcasts_S1x16_S10000x16 j = x1 (b1 j) :=
    broadcastTo_apply x1 broadcasts_S1x16_S10000x16 j (b1 j) (fun a => match a with
      | ⟨0, _⟩ => by show (0 : Nat) = if (1 : Nat) = 1 then 0 else _; rw [if_pos rfl]
      | ⟨1, _⟩ => by show (j 1).val = if (16 : Nat) = 1 then 0 else _; rw [if_neg (by decide)]; rfl)
  show FloatOps.maximumf (FloatOps.addf (F := Ideal) (φ := .f32) (x0 j) (broadcastTo S10000x16 x1 broadcasts_S1x16_S10000x16 j)) (FloatOps.ofBits (F := Ideal) .f32 0x00000000#32) = _
  rw [hb]

/-- The host's term at (r, d): the same function of the aggregated value and the bias entry. -/
theorem G_apply (A : FVec Ideal S200000x16 .f32) (B : FVec Ideal S1x16 .f32) (i : S200000x16.Idx) :
    G A B i = FloatOps.maximumf (FloatOps.addf (F := Ideal) (φ := .f32) (A i) (B (B1 i))) (FloatOps.ofBits (F := Ideal) .f32 0x00000000#32) := by
  have hb : broadcastInDim S200000x16 ![0, 1] Cert.ReferenceIdeal.Facts₀.bcast_S1x16_S200000x16_0_1 B i = B (B1 i) :=
    broadcastInDim_apply _ Cert.ReferenceIdeal.Facts₀.bcast_S1x16_S200000x16_0_1 B i (B1 i) (fun a => match a with
      | ⟨0, _⟩ => by show (0 : Nat) = if (1 : Nat) = 1 then 0 else (i 0).val; rw [if_pos rfl]
      | ⟨1, _⟩ => by show (i 1).val = if (16 : Nat) = 1 then 0 else (i 1).val; rw [if_neg (by decide)])
  show FloatOps.maximumf (FloatOps.addf (F := Ideal) (φ := .f32) (A i) (broadcastInDim S200000x16 ![0, 1] Cert.ReferenceIdeal.Facts₀.bcast_S1x16_S200000x16_0_1 B i)) (Ideal.ofBits .f32 0x00000000#32) = _
  rw [hb]
  rfl

/-! ## From blocks to the array -/

/-- The printed index maps over the grid: the input and the output move together along the rows, the bias row stays. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block is some point's. -/
theorem idx_onto : ∀ (q0 : Fin 20) (q1 : Fin 1), ∃ t : Fin cfg1.N, win1_2.index t = ![q0.val + 0, q1.val + 0] :=
  (by decide +kernel : ∀ (q0 : Fin 20) (q1 : Fin 1), ∃ t : Fin grid1.N, win1_2.index t = ![q0.val + 0, q1.val + 0])

/-- An input block's element is the array's element at block index × block size + the coordinate inside the block. -/
theorem read_in (c : Dev nD) (t : Fin cfg1.N) (y : S10000x16.Idx) :
    iblk1 V c 0 t y = V c main_v44 (((cfg1.win 0).blk t).view.emb y) := rfl
theorem read_b (c : Dev nD) (t : Fin cfg1.N) (y : S1x16.Idx) :
    iblk1 V c 1 t y = V c main_v45 (((cfg1.win 1).blk t).view.emb y) := rfl

/-- What point t writes back is block t of the whole-array function of the region's two input arrays. -/
theorem flushed_eq (c : Dev nD) (t : Fin cfg1.N) :
    (dat1 V c).flushed 2 t = ((cfg1.win 2).blk t).view.read (Elt Ideal)
      (G (V c main_v44 : FVec Ideal S200000x16 .f32) (V c main_v45 : FVec Ideal S1x16 .f32)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨e0, e1, e2, e3, e4⟩ := idx_facts t
  funext j
  show k1_pay1 (F := Ideal) (iblk1 V c 0 t) (iblk1 V c 1 t) j
    = G (V c main_v44 : FVec Ideal S200000x16 .f32) (V c main_v45 : FVec Ideal S1x16 .f32) (((cfg1.win 2).blk t).view.emb j)
  refine (pay_apply (iblk1 V c 0 t) (iblk1 V c 1 t) j).trans ?_
  refine Eq.trans ?_ (G_apply (V c main_v44) (V c main_v45) (((cfg1.win 2).blk t).view.emb j)).symm
  have h0 : iblk1 V c 0 t j = V c main_v44 (((cfg1.win 2).blk t).view.emb j) := by
    rw [read_in]
    refine congrArg (V c main_v44) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : iblk1 V c 1 t (b1 j) = V c main_v45 (B1 (((cfg1.win 2).blk t).view.emb j)) := by
    rw [read_b]
    refine congrArg (V c main_v45) (funext fun a => Fin.ext ?_)
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]

/-- An index of the output array lies in point t's block iff its row lies in that block's row range. -/
theorem mem_blk (t : Fin cfg1.N) (i : S200000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v46).slice (win1_2.rect t)).set ↔ _
  rw [View.set_slice_whole, Rect.mem_set_unit]
  exact Iff.rfl

/-- The twenty row blocks cover the output array: row r is in block r / 10000. -/
theorem cover (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  obtain ⟨t, ht⟩ := idx_onto ⟨(i 0).val / 10000, by omega⟩ ⟨(i 1).val / 16, by omega⟩
  have q0 : win1_2.index t (0 : Fin 2) = (i 0).val / 10000 + 0 := congrFun ht 0
  have q1 : win1_2.index t (1 : Fin 2) = (i 1).val / 16 + 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The region's output array after the run: the whole-array function of its two input arrays as the region found them. -/
theorem final (c : Dev nD) : (dat1 V c).arrAt 2 cfg1.N
    = G (V c main_v44 : FVec Ideal S200000x16 .f32) (V c main_v45 : FVec Ideal S1x16 .f32) :=
  (dat1 V c).arrAt_eq_of_cover 2 _ (fun t _ => flushed_eq V c t) cover

end Cert.KernelIdeal.Act1

end
-- ==== Proof.Dense2.lean ====
/-
  Region 2: one layer's linear map, blocked over the node axis. Grid point t stages rows 10000·t … 10000·t + 9999 of the
  [200000, 16] input and the whole [16, 32] weight, and writes rows 10000·t … of the [200000, 32] output with the block's
  matrix product into a zero accumulator. A change of float format is the identity on the extended reals, so entry (r, d)
  of a block's product is the sum over k of input (r, k) times weight (k, d); the twenty blocks tile the rows, hence the
  output array ends as the whole [200000, 16] × [16, 32] product — the same sums the host's dot_general denotes.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products at an index -/

/-- Row (j 0) of the left factor at column k, and row k of the right factor at column (j 1): inside a block … -/
abbrev lk (j : S10000x32.Idx) (k : Fin 16) : S10000x16.Idx := fun a => match a with
  | ⟨0, _⟩ => ⟨(j 0).val, (j 0).isLt⟩
  | ⟨1, _⟩ => ⟨k.val, k.isLt⟩
abbrev rk (j : S10000x32.Idx) (k : Fin 16) : S16x32.Idx := fun a => match a with
  | ⟨0, _⟩ => ⟨k.val, k.isLt⟩
  | ⟨1, _⟩ => ⟨(j 1).val, (j 1).isLt⟩
/-- … and in the whole arrays. -/
abbrev lK (i : S200000x32.Idx) (k : Fin 16) : S200000x16.Idx := fun a => match a with
  | ⟨0, _⟩ => ⟨(i 0).val, (i 0).isLt⟩
  | ⟨1, _⟩ => ⟨k.val, k.isLt⟩
abbrev rK (i : S200000x32.Idx) (k : Fin 16) : S16x32.Idx := fun a => match a with
  | ⟨0, _⟩ => ⟨k.val, k.isLt⟩
  | ⟨1, _⟩ => ⟨(i 1).val, (i 1).isLt⟩

theorem blk_lhs0 (i : S10000x32.Idx) (q : (dot_S10000x16_S16x32_S10000x32_1_0_0_1_n_n).contr.Idx) : ((dot_S10000x16_S16x32_S10000x32_1_0_0_1_n_n).lhsIdx i q 0).val = (i 0).val := by
  unfold DotDims.lhsIdx
  rw [dif_neg (show ¬(0 : Fin S10000x16.rank) ∈ (dot_S10000x16_S16x32_S10000x32_1_0_0_1_n_n).lhsBatch by decide), dif_pos (show (0 : Fin S10000x16.rank) ∈ (dot_S10000x16_S16x32_S10000x32_1_0_0_1_n_n).lhsNonContracting by decide)]
  rfl
theorem blk_lhs1 (i : S10000x32.Idx) (q : (dot_S10000x16_S16x32_S10000x32_1_0_0_1_n_n).contr.Idx) : ((dot_S10000x16_S16x32_S10000x32_1_0_0_1_n_n).lhsIdx i q 1).val = (q ⟨0, by decide⟩).val :=
  (dot_S10000x16_S16x32_S10000x32_1_0_0_1_n_n).lhsIdx_val_of_single rfl i q
theorem blk_rhs0 (i : S10000x32.Idx) (q : (dot_S10000x16_S16x32_S10000x32_1_0_0_1_n_n).contr.Idx) : ((dot_S10000x16_S16x32_S10000x32_1_0_0_1_n_n).rhsIdx i q 0).val = (q ⟨0, by decide⟩).val :=
  (dot_S10000x16_S16x32_S10000x32_1_0_0_1_n_n).rhsIdx_val_of_single rfl i q
theorem blk_rhs1 (i : S10000x32.Idx) (q : (dot_S10000x16_S16x32_S10000x32_1_0_0_1_n_n).contr.Idx) : ((dot_S10000x16_S16x32_S10000x32_1_0_0_1_n_n).rhsIdx i q 1).val = (i 1).val := by
  unfold DotDims.rhsIdx
  rw [dif_neg (show ¬(1 : Fin S16x32.rank) ∈ (dot_S10000x16_S16x32_S10000x32_1_0_0_1_n_n).rhsBatch by decide), dif_pos (show (1 : Fin S16x32.rank) ∈ (dot_S10000x16_S16x32_S10000x32_1_0_0_1_n_n).rhsNonContracting by decide)]
  rfl

theorem arr_lhs0 (i : S200000x32.Idx) (q : (Cert.ReferenceIdeal.dot_S200000x16_S16x32_S200000x32_1_0_0_1_n_n).contr.Idx) : ((Cert.ReferenceIdeal.dot_S200000x16_S16x32_S200000x32_1_0_0_1_n_n).lhsIdx i q 0).val = (i 0).val := by
  unfold DotDims.lhsIdx
  rw [dif_neg (show ¬(0 : Fin S200000x16.rank) ∈ (Cert.ReferenceIdeal.dot_S200000x16_S16x32_S200000x32_1_0_0_1_n_n).lhsBatch by decide), dif_pos (show (0 : Fin S200000x16.rank) ∈ (Cert.ReferenceIdeal.dot_S200000x16_S16x32_S200000x32_1_0_0_1_n_n).lhsNonContracting by decide)]
  rfl
theorem arr_lhs1 (i : S200000x32.Idx) (q : (Cert.ReferenceIdeal.dot_S200000x16_S16x32_S200000x32_1_0_0_1_n_n).contr.Idx) : ((Cert.ReferenceIdeal.dot_S200000x16_S16x32_S200000x32_1_0_0_1_n_n).lhsIdx i q 1).val = (q ⟨0, by decide⟩).val :=
  (Cert.ReferenceIdeal.dot_S200000x16_S16x32_S200000x32_1_0_0_1_n_n).lhsIdx_val_of_single rfl i q
theorem arr_rhs0 (i : S200000x32.Idx) (q : (Cert.ReferenceIdeal.dot_S200000x16_S16x32_S200000x32_1_0_0_1_n_n).contr.Idx) : ((Cert.ReferenceIdeal.dot_S200000x16_S16x32_S200000x32_1_0_0_1_n_n).rhsIdx i q 0).val = (q ⟨0, by decide⟩).val :=
  (Cert.ReferenceIdeal.dot_S200000x16_S16x32_S200000x32_1_0_0_1_n_n).rhsIdx_val_of_single rfl i q
theorem arr_rhs1 (i : S200000x32.Idx) (q : (Cert.ReferenceIdeal.dot_S200000x16_S16x32_S200000x32_1_0_0_1_n_n).contr.Idx) : ((Cert.ReferenceIdeal.dot_S200000x16_S16x32_S200000x32_1_0_0_1_n_n).rhsIdx i q 1).val = (i 1).val := by
  unfold DotDims.rhsIdx
  rw [dif_neg (show ¬(1 : Fin S16x32.rank) ∈ (Cert.ReferenceIdeal.dot_S200000x16_S16x32_S200000x32_1_0_0_1_n_n).rhsBatch by decide), dif_pos (show (1 : Fin S16x32.rank) ∈ (Cert.ReferenceIdeal.dot_S200000x16_S16x32_S200000x32_1_0_0_1_n_n).rhsNonContracting by decide)]
  rfl

/-- The body's stored value at (r, d): the sum over k of the loaded input block at (r, k) times the weight at (k, d). -/
theorem pay_apply (x0 : Vec Ideal S10000x16 .f32) (x1 : Vec Ideal S16x32 .f32) (j : S10000x32.Idx) :
    k2_pay1 (F := Ideal) x0 x1 j = ∑ k : Fin 16, x0 (lk j k) * x1 (rk j k) := by
  unfold k2_pay1
  try simp only [shapeCast_self]
  refine (Ideal.matmul_constant_zero_apply (dot_S10000x16_S16x32_S10000x32_1_0_0_1_n_n) none _ _ j).trans ?_
  rw [← Equiv.sum_comp (ValueIdx.contrEquiv1 (dot_S10000x16_S16x32_S10000x32_1_0_0_1_n_n) 16 rfl rfl).symm]
  refine Finset.sum_congr rfl fun k _ => ?_
  have hk := ValueIdx.contrEquiv1_symm_val (dot_S10000x16_S16x32_S10000x32_1_0_0_1_n_n) 16 rfl rfl k
  have el : (dot_S10000x16_S16x32_S10000x32_1_0_0_1_n_n).lhsIdx j ((ValueIdx.contrEquiv1 (dot_S10000x16_S16x32_S10000x32_1_0_0_1_n_n) 16 rfl rfl).symm k) = lk j k := funext fun a => Fin.ext (by
    match a with
    | ⟨0, _⟩ => exact blk_lhs0 _ _
    | ⟨1, _⟩ => exact (blk_lhs1 _ _).trans hk)
  have er : (dot_S10000x16_S16x32_S10000x32_1_0_0_1_n_n).rhsIdx j ((ValueIdx.contrEquiv1 (dot_S10000x16_S16x32_S10000x32_1_0_0_1_n_n) 16 rfl rfl).symm k) = rk j k := funext fun a => Fin.ext (by
    match a with
    | ⟨0, _⟩ => exact (blk_rhs0 _ _).trans hk
    | ⟨1, _⟩ => exact blk_rhs1 _ _)
  rw [el, er]
  rfl

/-- The host's product of two whole arrays at (r, d): the same sum. -/
theorem prod_apply (X : FVec Ideal S200000x16 .f32) (W : FVec Ideal S16x32 .f32) (i : S200000x32.Idx) :
    Host.dotGeneral (F := Ideal) (φ₁ := .f32) (φ₂ := .f32) (Cert.ReferenceIdeal.dot_S200000x16_S16x32_S200000x32_1_0_0_1_n_n) none X W i = ∑ k : Fin 16, X (lK i k) * W (rK i k) := by
  simp only [Host.dotGeneral]
  rw [Ideal.dotGeneral_apply]
  rw [← Equiv.sum_comp (ValueIdx.contrEquiv1 (Cert.ReferenceIdeal.dot_S200000x16_S16x32_S200000x32_1_0_0_1_n_n) 16 rfl rfl).symm]
  refine Finset.sum_congr rfl fun k _ => ?_
  have hk := ValueIdx.contrEquiv1_symm_val (Cert.ReferenceIdeal.dot_S200000x16_S16x32_S200000x32_1_0_0_1_n_n) 16 rfl rfl k
  have el : (Cert.ReferenceIdeal.dot_S200000x16_S16x32_S200000x32_1_0_0_1_n_n).lhsIdx i ((ValueIdx.contrEquiv1 (Cert.ReferenceIdeal.dot_S200000x16_S16x32_S200000x32_1_0_0_1_n_n) 16 rfl rfl).symm k) = lK i k := funext fun a => Fin.ext (by
    match a with
    | ⟨0, _⟩ => exact arr_lhs0 _ _
    | ⟨1, _⟩ => exact (arr_lhs1 _ _).trans hk)
  have er : (Cert.ReferenceIdeal.dot_S200000x16_S16x32_S200000x32_1_0_0_1_n_n).rhsIdx i ((ValueIdx.contrEquiv1 (Cert.ReferenceIdeal.dot_S200000x16_S16x32_S200000x32_1_0_0_1_n_n) 16 rfl rfl).symm k) = rK i k := funext fun a => Fin.ext (by
    match a with
    | ⟨0, _⟩ => exact (arr_rhs0 _ _).trans hk
    | ⟨1, _⟩ => exact arr_rhs1 _ _)
  rw [el, er]

/-! ## From blocks to the array -/

/-- The printed index maps over the grid: the input and the output move together along the rows, the weight stays. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block is some point's. -/
theorem idx_onto : ∀ (q0 : Fin 20) (q1 : Fin 1), ∃ t : Fin cfg2.N, win2_2.index t = ![q0.val + 0, q1.val + 0] :=
  (by decide +kernel : ∀ (q0 : Fin 20) (q1 : Fin 1), ∃ t : Fin grid2.N, win2_2.index t = ![q0.val + 0, q1.val + 0])

/-- An input block's element is the array's element at block index × block size + the coordinate inside the block. -/
theorem read_in (c : Dev nD) (t : Fin cfg2.N) (y : S10000x16.Idx) :
    iblk2 V c 0 t y = V c main_v46 (((cfg2.win 0).blk t).view.emb y) := rfl
theorem read_w (c : Dev nD) (t : Fin cfg2.N) (y : S16x32.Idx) :
    iblk2 V c 1 t y = V c main_arg4 (((cfg2.win 1).blk t).view.emb y) := rfl

/-- What point t writes back is block t of the whole product of the region's two input arrays. -/
theorem flushed_eq (c : Dev nD) (t : Fin cfg2.N) :
    (dat2 V c).flushed 2 t = ((cfg2.win 2).blk t).view.read (Elt Ideal)
      (Host.dotGeneral (F := Ideal) (φ₁ := .f32) (φ₂ := .f32) (Cert.ReferenceIdeal.dot_S200000x16_S16x32_S200000x32_1_0_0_1_n_n) none (V c main_v46 : FVec Ideal S200000x16 .f32) (V c main_arg4 : FVec Ideal S16x32 .f32)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x32) hz]
  obtain ⟨e0, e1, e2, e3, e4⟩ := idx_facts t
  funext j
  show k2_pay1 (F := Ideal) (iblk2 V c 0 t) (iblk2 V c 1 t) j
    = Host.dotGeneral (F := Ideal) (φ₁ := .f32) (φ₂ := .f32) (Cert.ReferenceIdeal.dot_S200000x16_S16x32_S200000x32_1_0_0_1_n_n) none (V c main_v46 : FVec Ideal S200000x16 .f32) (V c main_arg4 : FVec Ideal S16x32 .f32) (((cfg2.win 2).blk t).view.emb j)
  refine (pay_apply (iblk2 V c 0 t) (iblk2 V c 1 t) j).trans ?_
  refine Eq.trans ?_ (prod_apply (V c main_v46) (V c main_arg4) (((cfg2.win 2).blk t).view.emb j)).symm
  refine Finset.sum_congr rfl fun k _ => ?_
  have h0 : iblk2 V c 0 t (lk j k) = V c main_v46 (lK (((cfg2.win 2).blk t).view.emb j) k) := by
    rw [read_in]
    refine congrArg (V c main_v46) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * k.val = k.val; omega
  have h1 : iblk2 V c 1 t (rk j k) = V c main_arg4 (rK (((cfg2.win 2).blk t).view.emb j) k) := by
    rw [read_w]
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 32 + 1 * (j 1).val = win2_2.index t (1 : Fin 2) * 32 + 1 * (j 1).val; omega
  rw [h0, h1]

/-- An index of the output array lies in point t's block iff its row lies in that block's row range. -/
theorem mem_blk (t : Fin cfg2.N) (i : S200000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v47).slice (win2_2.rect t)).set ↔ _
  rw [View.set_slice_whole, Rect.mem_set_unit]
  exact Iff.rfl

/-- The twenty row blocks cover the output array: row r is in block r / 10000. -/
theorem cover (i : S200000x32.Idx) : ∃ t : Fin cfg2.N, (cfg2.win 2).flush t = true ∧ i ∈ ((cfg2.win 2).blk t).view.set := by
  have hi0 : (i 0).val < 200000 := (i 0).isLt
  have hi1 : (i 1).val < 32 := (i 1).isLt
  obtain ⟨t, ht⟩ := idx_onto ⟨(i 0).val / 10000, by omega⟩ ⟨(i 1).val / 32, by omega⟩
  have q0 : win2_2.index t (0 : Fin 2) = (i 0).val / 10000 + 0 := congrFun ht 0
  have q1 : win2_2.index t (1 : Fin 2) = (i 1).val / 32 + 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- The region's output array after the run: the whole product of its two input arrays as the region found them. -/
theorem final (c : Dev nD) : (dat2 V c).arrAt 2 cfg2.N
    = Host.dotGeneral (F := Ideal) (φ₁ := .f32) (φ₂ := .f32) (Cert.ReferenceIdeal.dot_S200000x16_S16x32_S200000x32_1_0_0_1_n_n) none (V c main_v46 : FVec Ideal S200000x16 .f32) (V c main_arg4 : FVec Ideal S16x32 .f32) :=
  (dat2 V c).arrAt_eq_of_cover 2 _ (fun t _ => flushed_eq V c t) cover

end Cert.KernelIdeal.Dense2

end
-- ==== Proof.ChainA.lean ====
/-
  The boundary contents, first part: from the launch to the second layer's linear map.
  Before the first region the host builds, from the edge list, the source and destination index vectors with the self
  loops appended, the in-degree of every node (a scatter-add of ones), its power -1/2 where the degree is positive and 0
  elsewhere, and the per-message weight: that value at the source times that value at the destination. Each of these buffers holds the same
  function of the edge list as the reference's stage of the same operation. A region leaves every buffer other than its
  output array as it found it, and its output array at the whole-array function of its two inputs; a host stretch leaves
  a buffer it does not write as it found it. So, boundary after boundary: the first layer's product, its gathered,
  weighted and scatter-added messages, the bias row (a length-16 vector reshaped to one row is that vector broadcast into the
  row), the first layer's activation, and the second layer's product.
-/
import proofs.«164621_j24919400251445_2_alg».proof.Proof.KernelRun
import proofs.«164621_j24919400251445_2_alg».proof.Proof.RefReadP
import proofs.«164621_j24919400251445_2_alg».proof.Proof.Dense0
import proofs.«164621_j24919400251445_2_alg».proof.Proof.Act1
import proofs.«164621_j24919400251445_2_alg».proof.Proof.Dense2
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region -/

theorem E1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp
  try after_results_simp
  all_goals rfl
theorem E1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  dsimp only [hostOps0]
  after_results_simp
  try after_results_simp
  all_goals rfl
theorem E1_v12 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  dsimp only [hostOps0]
  after_results_simp
  try after_results_simp
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12]
  all_goals rfl
theorem E1_v14 : W1 m ρ c (Proc.devRef .tc main_v14) = Cert.ReferenceIdeal.ReadP.val_main_v14 (F := Ideal) (m ((c : Thread nD τ).loc main_arg1)) := by
  show StableHlo.after hostOps0 (W0 m ρ c) (Proc.devRef .tc main_v14) = _
  dsimp only [hostOps0]
  after_results_simp
  try after_results_simp
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14]
  all_goals rfl
theorem E1_cst3 : W1 m ρ c (Proc.devRef .tc main_cst_3) = Cert.ReferenceIdeal.ReadP.val_main_cst_3 (F := Ideal) := by
  show StableHlo.after hostOps0 (W0 m ρ c) (Proc.devRef .tc main_cst_3) = _
  dsimp only [hostOps0]
  after_results_simp
  all_goals rfl
theorem E2_v15 : W2 m ρ c (Proc.devRef .tc main_v15) = Cert.ReferenceIdeal.ReadP.val_main_v15 (F := Ideal) (m ((c : Thread nD τ).loc main_arg1)) := by
  show StableHlo.after hostOps0_1 (W1 m ρ c) (Proc.devRef .tc main_v15) = _
  have e12 := E1_v12 m ρ c
  have e14 := E1_v14 m ρ c
  have e3 := E1_cst3 m ρ c
  generalize W1 m ρ c = Wp at e12 e14 e3 ⊢
  dsimp only [hostOps0_1]
  after_results_simp
  simp only [cast_eq]
  rw [e12, e14, e3]
  simp only [Cert.ReferenceIdeal.ReadP.val_main_call0_v0, Cert.ReferenceIdeal.ReadP.val_main_call0_v1, Cert.ReferenceIdeal.ReadP.val_main_v15]
  all_goals rfl
theorem E2_v3 : W2 m ρ c (Proc.devRef .tc main_v3) = Cert.ReferenceIdeal.ReadP.val_main_v3 (F := Ideal) (m ((c : Thread nD τ).loc main_arg1)) := by
  show StableHlo.after hostOps0_1 (W1 m ρ c) (Proc.devRef .tc main_v3) = _
  have e := E1_v3 m ρ c
  generalize W1 m ρ c = Wp at e ⊢
  dsimp only [hostOps0_1]
  after_results_simp
  exact e
theorem E2_v6 : W2 m ρ c (Proc.devRef .tc main_v6) = Cert.ReferenceIdeal.ReadP.val_main_v6 (F := Ideal) (m ((c : Thread nD τ).loc main_arg1)) := by
  show StableHlo.after hostOps0_1 (W1 m ρ c) (Proc.devRef .tc main_v6) = _
  have e := E1_v6 m ρ c
  generalize W1 m ρ c = Wp at e ⊢
  dsimp only [hostOps0_1]
  after_results_simp
  exact e
theorem E3_v30 : W3 m ρ c (Proc.devRef .tc main_v30) = Cert.ReferenceIdeal.ReadP.val_main_v30 (F := Ideal) (m ((c : Thread nD τ).loc main_arg1)) := by
  show StableHlo.after hostOps0_2 (W2 m ρ c) (Proc.devRef .tc main_v30) = _
  have e15 := E2_v15 m ρ c
  have e3 := E2_v3 m ρ c
  have e6 := E2_v6 m ρ c
  generalize W2 m ρ c = Wp at e15 e3 e6 ⊢
  dsimp only [hostOps0_2]
  after_results_simp
  rw [e15, e3, e6]
  simp only [Cert.ReferenceIdeal.ReadP.val_main_c, Cert.ReferenceIdeal.ReadP.val_main_v16, Cert.ReferenceIdeal.ReadP.val_main_v17, Cert.ReferenceIdeal.ReadP.val_main_c_4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_v23, Cert.ReferenceIdeal.ReadP.val_main_v24, Cert.ReferenceIdeal.ReadP.val_main_c_6, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30]
  all_goals rfl
theorem E3_v3 : W3 m ρ c (Proc.devRef .tc main_v3) = Cert.ReferenceIdeal.ReadP.val_main_v3 (F := Ideal) (m ((c : Thread nD τ).loc main_arg1)) := by
  show StableHlo.after hostOps0_2 (W2 m ρ c) (Proc.devRef .tc main_v3) = _
  have e := E2_v3 m ρ c
  generalize W2 m ρ c = Wp at e ⊢
  dsimp only [hostOps0_2]
  after_results_simp
  exact e
theorem E3_v6 : W3 m ρ c (Proc.devRef .tc main_v6) = Cert.ReferenceIdeal.ReadP.val_main_v6 (F := Ideal) (m ((c : Thread nD τ).loc main_arg1)) := by
  show StableHlo.after hostOps0_2 (W2 m ρ c) (Proc.devRef .tc main_v6) = _
  have e := E2_v6 m ρ c
  generalize W2 m ρ c = Wp at e ⊢
  dsimp only [hostOps0_2]
  after_results_simp
  exact e
theorem E3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_simp
theorem E3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results_simp
theorem E3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp
theorem E3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_simp
theorem E3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results_simp
theorem E3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results_simp
theorem E3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  dsimp only [hostOps0, hostOps0_1, hostOps0_2]
  after_results_simp
theorem E3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  dsimp only [hostOps0, hostOps0_1, hostOps0_2]
  after_results_simp
theorem E3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  dsimp only [hostOps0, hostOps0_1, hostOps0_2]
  after_results_simp

/-! ## The first layer -/

theorem E4_v31 : W4 m ρ c (Proc.devRef .tc main_v31) = Cert.ReferenceIdeal.ReadP.val_main_v31 (F := Ideal) (m ((c : Thread nD τ).loc main_arg0)) (m ((c : Thread nD τ).loc main_arg2)) := by
  refine (W4_arr m ρ c 2).trans ?_
  refine (Cert.KernelIdeal.Dense0.final (V3 m ρ) c).trans ?_
  exact congrArg₂ (fun (X : FVec Ideal S200000x23 .f32) (W : FVec Ideal S23x16 .f32) => Host.dotGeneral (F := Ideal) (φ₁ := .f32) (φ₂ := .f32) (Cert.ReferenceIdeal.dot_S200000x23_S23x16_S200000x16_1_0_0_1_n_n) none X W) (E3_arg0 m ρ c) (E3_arg2 m ρ c)
theorem E4_v3 : W4 m ρ c (Proc.devRef .tc main_v3) = Cert.ReferenceIdeal.ReadP.val_main_v3 (F := Ideal) (m ((c : Thread nD τ).loc main_arg1)) :=
  (W4_of_ne m ρ c main_v3 (by decide)).trans (E3_v3 m ρ c)
theorem E4_v6 : W4 m ρ c (Proc.devRef .tc main_v6) = Cert.ReferenceIdeal.ReadP.val_main_v6 (F := Ideal) (m ((c : Thread nD τ).loc main_arg1)) :=
  (W4_of_ne m ρ c main_v6 (by decide)).trans (E3_v6 m ρ c)
theorem E4_v30 : W4 m ρ c (Proc.devRef .tc main_v30) = Cert.ReferenceIdeal.ReadP.val_main_v30 (F := Ideal) (m ((c : Thread nD τ).loc main_arg1)) :=
  (W4_of_ne m ρ c main_v30 (by decide)).trans (E3_v30 m ρ c)
theorem E4_arg3 : W4 m ρ c (Proc.devRef .tc main_arg3) = (m ((c : Thread nD τ).loc main_arg3)) :=
  (W4_of_ne m ρ c main_arg3 (by decide)).trans (E3_arg3 m ρ c)
theorem E4_arg4 : W4 m ρ c (Proc.devRef .tc main_arg4) = (m ((c : Thread nD τ).loc main_arg4)) :=
  (W4_of_ne m ρ c main_arg4 (by decide)).trans (E3_arg4 m ρ c)
theorem E4_arg5 : W4 m ρ c (Proc.devRef .tc main_arg5) = (m ((c : Thread nD τ).loc main_arg5)) :=
  (W4_of_ne m ρ c main_arg5 (by decide)).trans (E3_arg5 m ρ c)
theorem E4_arg6 : W4 m ρ c (Proc.devRef .tc main_arg6) = (m ((c : Thread nD τ).loc main_arg6)) :=
  (W4_of_ne m ρ c main_arg6 (by decide)).trans (E3_arg6 m ρ c)
theorem E4_arg7 : W4 m ρ c (Proc.devRef .tc main_arg7) = (m ((c : Thread nD τ).loc main_arg7)) :=
  (W4_of_ne m ρ c main_arg7 (by decide)).trans (E3_arg7 m ρ c)
theorem E4_arg8 : W4 m ρ c (Proc.devRef .tc main_arg8) = (m ((c : Thread nD τ).loc main_arg8)) :=
  (W4_of_ne m ρ c main_arg8 (by decide)).trans (E3_arg8 m ρ c)
theorem E4_arg9 : W4 m ρ c (Proc.devRef .tc main_arg9) = (m ((c : Thread nD τ).loc main_arg9)) :=
  (W4_of_ne m ρ c main_arg9 (by decide)).trans (E3_arg9 m ρ c)
theorem E5_v44 : W5 m ρ c (Proc.devRef .tc main_v44) = Cert.ReferenceIdeal.ReadP.val_main_v44 (F := Ideal) (m ((c : Thread nD τ).loc main_arg0)) (m ((c : Thread nD τ).loc main_arg1)) (m ((c : Thread nD τ).loc main_arg2)) := by
  show StableHlo.after hostOps1 (W4 m ρ c) (Proc.devRef .tc main_v44) = _
  dsimp only [hostOps1]
  after_results_simp
  rw [E4_v31, E4_v3, E4_v6, E4_v30]
  simp only [Cert.ReferenceIdeal.ReadP.val_main_c_7, Cert.ReferenceIdeal.ReadP.val_main_v32, Cert.ReferenceIdeal.ReadP.val_main_v33, Cert.ReferenceIdeal.ReadP.val_main_c_8, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_cst_9, Cert.ReferenceIdeal.ReadP.val_main_v42, Cert.ReferenceIdeal.ReadP.val_main_v43, Cert.ReferenceIdeal.ReadP.val_main_v44]
  rfl
/-- A length-16 vector reshaped to one row is the vector broadcast into the row. -/
theorem row16 (x : (⟨S16, .f32⟩ : BufTy).Contents (Elt Ideal)) :
    shapeCast S1x16 x shapeCasts_S16_S1x16 = Cert.ReferenceIdeal.ReadP.val_main_v45 (F := Ideal) x :=
  funext fun i => (shapeCast_apply x shapeCasts_S16_S1x16 i (Cert.ReferenceIdeal.ReadP.idx_main_v45 i) (by
    rw [Shape.rowMajor_val_one, Shape.rowMajor_val_two]
    have h0 : (i 0).val < 1 := (i 0).isLt
    show (i 1).val = (i 0).val * 16 + (i 1).val
    omega)).trans (Cert.ReferenceIdeal.ReadP.val_main_v45_apply x i).symm
theorem E5_v45 : W5 m ρ c (Proc.devRef .tc main_v45) = Cert.ReferenceIdeal.ReadP.val_main_v45 (F := Ideal) (m ((c : Thread nD τ).loc main_arg3)) := by
  show StableHlo.after hostOps1 (W4 m ρ c) (Proc.devRef .tc main_v45) = _
  dsimp only [hostOps1]
  after_results_simp
  rw [E4_arg3]
  exact row16 _
theorem E5_v3 : W5 m ρ c (Proc.devRef .tc main_v3) = Cert.ReferenceIdeal.ReadP.val_main_v3 (F := Ideal) (m ((c : Thread nD τ).loc main_arg1)) := by
  show StableHlo.after hostOps1 (W4 m ρ c) (Proc.devRef .tc main_v3) = _
  dsimp only [hostOps1]
  after_results_simp
  exact E4_v3 m ρ c
theorem E5_v6 : W5 m ρ c (Proc.devRef .tc main_v6) = Cert.ReferenceIdeal.ReadP.val_main_v6 (F := Ideal) (m ((c : Thread nD τ).loc main_arg1)) := by
  show StableHlo.after hostOps1 (W4 m ρ c) (Proc.devRef .tc main_v6) = _
  dsimp only [hostOps1]
  after_results_simp
  exact E4_v6 m ρ c
theorem E5_v30 : W5 m ρ c (Proc.devRef .tc main_v30) = Cert.ReferenceIdeal.ReadP.val_main_v30 (F := Ideal) (m ((c : Thread nD τ).loc main_arg1)) := by
  show StableHlo.after hostOps1 (W4 m ρ c) (Proc.devRef .tc main_v30) = _
  dsimp only [hostOps1]
  after_results_simp
  exact E4_v30 m ρ c
theorem E5_arg4 : W5 m ρ c (Proc.devRef .tc main_arg4) = (m ((c : Thread nD τ).loc main_arg4)) := by
  show StableHlo.after hostOps1 (W4 m ρ c) (Proc.devRef .tc main_arg4) = _
  dsimp only [hostOps1]
  after_results_simp
  exact E4_arg4 m ρ c
theorem E5_arg5 : W5 m ρ c (Proc.devRef .tc main_arg5) = (m ((c : Thread nD τ).loc main_arg5)) := by
  show StableHlo.after hostOps1 (W4 m ρ c) (Proc.devRef .tc main_arg5) = _
  dsimp only [hostOps1]
  after_results_simp
  exact E4_arg5 m ρ c
theorem E5_arg6 : W5 m ρ c (Proc.devRef .tc main_arg6) = (m ((c : Thread nD τ).loc main_arg6)) := by
  show StableHlo.after hostOps1 (W4 m ρ c) (Proc.devRef .tc main_arg6) = _
  dsimp only [hostOps1]
  after_results_simp
  exact E4_arg6 m ρ c
theorem E5_arg7 : W5 m ρ c (Proc.devRef .tc main_arg7) = (m ((c : Thread nD τ).loc main_arg7)) := by
  show StableHlo.after hostOps1 (W4 m ρ c) (Proc.devRef .tc main_arg7) = _
  dsimp only [hostOps1]
  after_results_simp
  exact E4_arg7 m ρ c
theorem E5_arg8 : W5 m ρ c (Proc.devRef .tc main_arg8) = (m ((c : Thread nD τ).loc main_arg8)) := by
  show StableHlo.after hostOps1 (W4 m ρ c) (Proc.devRef .tc main_arg8) = _
  dsimp only [hostOps1]
  after_results_simp
  exact E4_arg8 m ρ c
theorem E5_arg9 : W5 m ρ c (Proc.devRef .tc main_arg9) = (m ((c : Thread nD τ).loc main_arg9)) := by
  show StableHlo.after hostOps1 (W4 m ρ c) (Proc.devRef .tc main_arg9) = _
  dsimp only [hostOps1]
  after_results_simp
  exact E4_arg9 m ρ c
theorem E6_v46 : W6 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Cert.KernelIdeal.Act1.final (V5 m ρ) c).trans ?_
  exact congrArg₂ (fun A B => Cert.KernelIdeal.Act1.G A B) (E5_v44 m ρ c) (E5_v45 m ρ c)
theorem E6_v3 : W6 m ρ c (Proc.devRef .tc main_v3) = Cert.ReferenceIdeal.ReadP.val_main_v3 (F := Ideal) (m ((c : Thread nD τ).loc main_arg1)) :=
  (W6_of_ne m ρ c main_v3 (by decide)).trans (E5_v3 m ρ c)
theorem E6_v6 : W6 m ρ c (Proc.devRef .tc main_v6) = Cert.ReferenceIdeal.ReadP.val_main_v6 (F := Ideal) (m ((c : Thread nD τ).loc main_arg1)) :=
  (W6_of_ne m ρ c main_v6 (by decide)).trans (E5_v6 m ρ c)
theorem E6_v30 : W6 m ρ c (Proc.devRef .tc main_v30) = Cert.ReferenceIdeal.ReadP.val_main_v30 (F := Ideal) (m ((c : Thread nD τ).loc main_arg1)) :=
  (W6_of_ne m ρ c main_v30 (by decide)).trans (E5_v30 m ρ c)
theorem E6_arg4 : W6 m ρ c (Proc.devRef .tc main_arg4) = (m ((c : Thread nD τ).loc main_arg4)) :=
  (W6_of_ne m ρ c main_arg4 (by decide)).trans (E5_arg4 m ρ c)
theorem E6_arg5 : W6 m ρ c (Proc.devRef .tc main_arg5) = (m ((c : Thread nD τ).loc main_arg5)) :=
  (W6_of_ne m ρ c main_arg5 (by decide)).trans (E5_arg5 m ρ c)
theorem E6_arg6 : W6 m ρ c (Proc.devRef .tc main_arg6) = (m ((c : Thread nD τ).loc main_arg6)) :=
  (W6_of_ne m ρ c main_arg6 (by decide)).trans (E5_arg6 m ρ c)
theorem E6_arg7 : W6 m ρ c (Proc.devRef .tc main_arg7) = (m ((c : Thread nD τ).loc main_arg7)) :=
  (W6_of_ne m ρ c main_arg7 (by decide)).trans (E5_arg7 m ρ c)
theorem E6_arg8 : W6 m ρ c (Proc.devRef .tc main_arg8) = (m ((c : Thread nD τ).loc main_arg8)) :=
  (W6_of_ne m ρ c main_arg8 (by decide)).trans (E5_arg8 m ρ c)
theorem E6_arg9 : W6 m ρ c (Proc.devRef .tc main_arg9) = (m ((c : Thread nD τ).loc main_arg9)) :=
  (W6_of_ne m ρ c main_arg9 (by decide)).trans (E5_arg9 m ρ c)

/-! ## The second layer's linear map -/

theorem E7_v47 : W7 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Cert.KernelIdeal.Dense2.final (V6 m ρ) c).trans ?_
  exact congrArg₂ (fun (X : FVec Ideal S200000x16 .f32) (W : FVec Ideal S16x32 .f32) => Host.dotGeneral (F := Ideal) (φ₁ := .f32) (φ₂ := .f32) (Cert.ReferenceIdeal.dot_S200000x16_S16x32_S200000x32_1_0_0_1_n_n) none X W) (E6_v46 m ρ c) (E6_arg4 m ρ c)
theorem E7_v3 : W7 m ρ c (Proc.devRef .tc main_v3) = Cert.ReferenceIdeal.ReadP.val_main_v3 (F := Ideal) (m ((c : Thread nD τ).loc main_arg1)) :=
  (W7_of_ne m ρ c main_v3 (by decide)).trans (E6_v3 m ρ c)
theorem E7_v6 : W7 m ρ c (Proc.devRef .tc main_v6) = Cert.ReferenceIdeal.ReadP.val_main_v6 (F := Ideal) (m ((c : Thread nD τ).loc main_arg1)) :=
  (W7_of_ne m ρ c main_v6 (by decide)).trans (E6_v6 m ρ c)
theorem E7_v30 : W7 m ρ c (Proc.devRef .tc main_v30) = Cert.ReferenceIdeal.ReadP.val_main_v30 (F := Ideal) (m ((c : Thread nD τ).loc main_arg1)) :=
  (W7_of_ne m ρ c main_v30 (by decide)).trans (E6_v30 m ρ c)
theorem E7_arg5 : W7 m ρ c (Proc.devRef .tc main_arg5) = (m ((c : Thread nD τ).loc main_arg5)) :=
  (W7_of_ne m ρ c main_arg5 (by decide)).trans (E6_arg5 m ρ c)
theorem E7_arg6 : W7 m ρ c (Proc.devRef .tc main_arg6) = (m ((c : Thread nD τ).loc main_arg6)) :=
  (W7_of_ne m ρ c main_arg6 (by decide)).trans (E6_arg6 m ρ c)
theorem E7_arg7 : W7 m ρ c (Proc.devRef .tc main_arg7) = (m ((c : Thread nD τ).loc main_arg7)) :=
  (W7_of_ne m ρ c main_arg7 (by decide)).trans (E6_arg7 m ρ c)
theorem E7_arg8 : W7 m ρ c (Proc.devRef .tc main_arg8) = (m ((c : Thread nD τ).loc main_arg8)) :=
  (W7_of_ne m ρ c main_arg8 (by decide)).trans (E6_arg8 m ρ c)
theorem E7_arg9 : W7 m ρ c (Proc.devRef .tc main_arg9) = (m ((c : Thread nD τ).loc main_arg9)) :=
  (W7_of_ne m ρ c main_arg9 (by decide)).trans (E6_arg9 m ρ c)

end Cert.KernelIdeal.Chain

end
-- ==== Proof.Act3.lean ====
/-
  Region 3: one layer's bias and activation, blocked over the node axis. Grid point t stages rows 10000·t … 10000·t + 9999 of
  the aggregated [200000, 32] array and the whole [1, 32] bias row, and writes the same rows of the [200000, 32] output: at
  (r, d) the aggregated value plus the bias at d, then the maximum of the sum and zero. The twenty blocks tile the rows, so the output array ends as
  that pointwise function of the whole aggregated array and the bias row.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Act3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column (j 1): inside a block … -/
abbrev b1 (j : S10000x32.Idx) : S1x32.Idx := fun a => match a with
  | ⟨0, _⟩ => ⟨0, Nat.one_pos⟩
  | ⟨1, _⟩ => ⟨(j 1).val, (j 1).isLt⟩
/-- … and in the whole array. -/
abbrev B1 (i : S200000x32.Idx) : S1x32.Idx := fun a => match a with
  | ⟨0, _⟩ => ⟨0, Nat.one_pos⟩
  | ⟨1, _⟩ => ⟨(i 1).val, (i 1).isLt⟩

/-- The whole-array function the region computes, in the host's operations. -/
abbrev G (A : FVec Ideal S200000x32 .f32) (B : FVec Ideal S1x32 .f32) : FVec Ideal S200000x32 .f32 :=
  maximumf (addf A (broadcastInDim S200000x32 ![0, 1] Cert.ReferenceIdeal.Facts₀.bcast_S1x32_S200000x32_0_1 B)) (broadcastInDim S200000x32 ![] Cert.ReferenceIdeal.Facts₀.bcast_S_S200000x32 (constant (F := Ideal) S_ .f32 0x00000000#32))

/-- The body's stored value at (r, d). -/
theorem pay_apply (x0 : Vec Ideal S10000x32 .f32) (x1 : Vec Ideal S1x32 .f32) (j : S10000x32.Idx) :
    k3_pay1 (F := Ideal) x0 x1 j = FloatOps.maximumf (FloatOps.addf (F := Ideal) (φ := .f32) (x0 j) (x1 (b1 j))) (FloatOps.ofBits (F := Ideal) .f32 0x00000000#32) := by
  unfold k3_pay1
  simp only [shapeCast_self]
  have hb : broadcastTo S10000x32 x1 broadcasts_S1x32_S10000x32 j = x1 (b1 j) :=
    broadcastTo_apply x1 broadcasts_S1x32_S10000x32 j (b1 j) (fun a => match a with
      | ⟨0, _⟩ => by show (0 : Nat) = if (1 : Nat) = 1 then 0 else _; rw [if_pos rfl]
      | ⟨1, _⟩ => by show (j 1).val = if (32 : Nat) = 1 then 0 else _; rw [if_neg (by decide)]; rfl)
  show FloatOps.maximumf (FloatOps.addf (F := Ideal) (φ := .f32) (x0 j) (broadcastTo S10000x32 x1 broadcasts_S1x32_S10000x32 j)) (FloatOps.ofBits (F := Ideal) .f32 0x00000000#32) = _
  rw [hb]

/-- The host's term at (r, d): the same function of the aggregated value and the bias entry. -/
theorem G_apply (A : FVec Ideal S200000x32 .f32) (B : FVec Ideal S1x32 .f32) (i : S200000x32.Idx) :
    G A B i = FloatOps.maximumf (FloatOps.addf (F := Ideal) (φ := .f32) (A i) (B (B1 i))) (FloatOps.ofBits (F := Ideal) .f32 0x00000000#32) := by
  have hb : broadcastInDim S200000x32 ![0, 1] Cert.ReferenceIdeal.Facts₀.bcast_S1x32_S200000x32_0_1 B i = B (B1 i) :=
    broadcastInDim_apply _ Cert.ReferenceIdeal.Facts₀.bcast_S1x32_S200000x32_0_1 B i (B1 i) (fun a => match a with
      | ⟨0, _⟩ => by show (0 : Nat) = if (1 : Nat) = 1 then 0 else (i 0).val; rw [if_pos rfl]
      | ⟨1, _⟩ => by show (i 1).val = if (32 : Nat) = 1 then 0 else (i 1).val; rw [if_neg (by decide)])
  show FloatOps.maximumf (FloatOps.addf (F := Ideal) (φ := .f32) (A i) (broadcastInDim S200000x32 ![0, 1] Cert.ReferenceIdeal.Facts₀.bcast_S1x32_S200000x32_0_1 B i)) (Ideal.ofBits .f32 0x00000000#32) = _
  rw [hb]
  rfl

/-! ## From blocks to the array -/

/-- The printed index maps over the grid: the input and the output move together along the rows, the bias row stays. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every row block is some point's. -/
theorem idx_onto : ∀ (q0 : Fin 20) (q1 : Fin 1), ∃ t : Fin cfg3.N, win3_2.index t = ![q0.val + 0, q1.val + 0] :=
  (by decide +kernel : ∀ (q0 : Fin 20) (q1 : Fin 1), ∃ t : Fin grid3.N, win3_2.index t = ![q0.val + 0, q1.val + 0])

/-- An input block's element is the array's element at block index × block size + the coordinate inside the block. -/
theorem read_in (c : Dev nD) (t : Fin cfg3.N) (y : S10000x32.Idx) :
    iblk3 V c 0 t y = V c main_v60 (((cfg3.win 0).blk t).view.emb y) := rfl
theorem read_b (c : Dev nD) (t : Fin cfg3.N) (y : S1x32.Idx) :
    iblk3 V c 1 t y = V c main_v61 (((cfg3.win 1).blk t).view.emb y) := rfl

/-- What point t writes back is block t of the whole-array function of the region's two input arrays. -/
theorem flushed_eq (c : Dev nD) (t : Fin cfg3.N) :
    (dat3 V c).flushed 2 t = ((cfg3.win 2).blk t).view.read (Elt Ideal)
      (G (V c main_v60 : FVec Ideal S200000x32 .f32) (V c main_v61 : FVec Ideal S1x32 .f32)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨e0, e1, e2, e3, e4⟩ := idx_facts t
  funext j
  show k3_pay1 (F := Ideal) (iblk3 V c 0 t) (iblk3 V c 1 t) j
    = G (V c main_v60 : FVec Ideal S200000x32 .f32) (V c main_v61 : FVec Ideal S1x32 .f32) (((cfg3.win 2).blk t).view.emb j)
  refine (pay_apply (iblk3 V c 0 t) (iblk3 V c 1 t) j).trans ?_
  refine Eq.trans ?_ (G_apply (V c main_v60) (V c main_v61) (((cfg3.win 2).blk t).view.emb j)).symm
  have h0 : iblk3 V c 0 t j = V c main_v60 (((cfg3.win 2).blk t).view.emb j) := by
    rw [read_in]
    refine congrArg (V c main_v60) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have h1 : iblk3 V c 1 t (b1 j) = V c main_v61 (B1 (((cfg3.win 2).blk t).view.emb j)) := by
    rw [read_b]
    refine congrArg (V c main_v61) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

/-- An index of the output array lies in point t's block iff its row lies in that block's row range. -/
theorem mem_blk (t : Fin cfg3.N) (i : S200000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v62).slice (win3_2.rect t)).set ↔ _
  rw [View.set_slice_whole, Rect.mem_set_unit]
  exact Iff.rfl

/-- The twenty row blocks cover the output array: row r is in block r / 10000. -/
theorem cover (i : S200000x32.Idx) : ∃ t : Fin cfg3.N, (cfg3.win 2).flush t = true ∧ i ∈ ((cfg3.win 2).blk t).view.set := by
  have hi0 : (i 0).val < 200000 := (i 0).isLt
  have hi1 : (i 1).val < 32 := (i 1).isLt
  obtain ⟨t, ht⟩ := idx_onto ⟨(i 0).val / 10000, by omega⟩ ⟨(i 1).val / 32, by omega⟩
  have q0 : win3_2.index t (0 : Fin 2) = (i 0).val / 10000 + 0 := congrFun ht 0
  have q1 : win3_2.index t (1 : Fin 2) = (i 1).val / 32 + 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- The region's output array after the run: the whole-array function of its two input arrays as the region found them. -/
theorem final (c : Dev nD) : (dat3 V c).arrAt 2 cfg3.N
    = G (V c main_v60 : FVec Ideal S200000x32 .f32) (V c main_v61 : FVec Ideal S1x32 .f32) :=
  (dat3 V c).arrAt_eq_of_cover 2 _ (fun t _ => flushed_eq V c t) cover

end Cert.KernelIdeal.Act3

end
-- ==== Proof.Dense4.lean ====
/-
  Region 4: one layer's linear map, blocked over the node axis. Grid point t stages rows 10000·t … 10000·t + 9999 of the
  [200000, 32] input and the whole [32, 32] weight, and writes rows 10000·t … of the [200000, 32] output with the block's
  matrix product into a zero accumulator. A change of float format is the identity on the extended reals, so entry (r, d)
  of a block's product is the sum over k of input (r, k) times weight (k, d); the twenty blocks tile the rows, hence the
  output array ends as the whole [200000, 32] × [32, 32] product — the same sums the host's dot_general denotes.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Dense4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products at an index -/

/-- Row (j 0) of the left factor at column k, and row k of the right factor at column (j 1): inside a block … -/
abbrev lk (j : S10000x32.Idx) (k : Fin 32) : S10000x32.Idx := fun a => match a with
  | ⟨0, _⟩ => ⟨(j 0).val, (j 0).isLt⟩
  | ⟨1, _⟩ => ⟨k.val, k.isLt⟩
abbrev rk (j : S10000x32.Idx) (k : Fin 32) : S32x32.Idx := fun a => match a with
  | ⟨0, _⟩ => ⟨k.val, k.isLt⟩
  | ⟨1, _⟩ => ⟨(j 1).val, (j 1).isLt⟩
/-- … and in the whole arrays. -/
abbrev lK (i : S200000x32.Idx) (k : Fin 32) : S200000x32.Idx := fun a => match a with
  | ⟨0, _⟩ => ⟨(i 0).val, (i 0).isLt⟩
  | ⟨1, _⟩ => ⟨k.val, k.isLt⟩
abbrev rK (i : S200000x32.Idx) (k : Fin 32) : S32x32.Idx := fun a => match a with
  | ⟨0, _⟩ => ⟨k.val, k.isLt⟩
  | ⟨1, _⟩ => ⟨(i 1).val, (i 1).isLt⟩

theorem blk_lhs0 (i : S10000x32.Idx) (q : (dot_S10000x32_S32x32_S10000x32_1_0_0_1_n_n).contr.Idx) : ((dot_S10000x32_S32x32_S10000x32_1_0_0_1_n_n).lhsIdx i q 0).val = (i 0).val := by
  unfold DotDims.lhsIdx
  rw [dif_neg (show ¬(0 : Fin S10000x32.rank) ∈ (dot_S10000x32_S32x32_S10000x32_1_0_0_1_n_n).lhsBatch by decide), dif_pos (show (0 : Fin S10000x32.rank) ∈ (dot_S10000x32_S32x32_S10000x32_1_0_0_1_n_n).lhsNonContracting by decide)]
  rfl
theorem blk_lhs1 (i : S10000x32.Idx) (q : (dot_S10000x32_S32x32_S10000x32_1_0_0_1_n_n).contr.Idx) : ((dot_S10000x32_S32x32_S10000x32_1_0_0_1_n_n).lhsIdx i q 1).val = (q ⟨0, by decide⟩).val :=
  (dot_S10000x32_S32x32_S10000x32_1_0_0_1_n_n).lhsIdx_val_of_single rfl i q
theorem blk_rhs0 (i : S10000x32.Idx) (q : (dot_S10000x32_S32x32_S10000x32_1_0_0_1_n_n).contr.Idx) : ((dot_S10000x32_S32x32_S10000x32_1_0_0_1_n_n).rhsIdx i q 0).val = (q ⟨0, by decide⟩).val :=
  (dot_S10000x32_S32x32_S10000x32_1_0_0_1_n_n).rhsIdx_val_of_single rfl i q
theorem blk_rhs1 (i : S10000x32.Idx) (q : (dot_S10000x32_S32x32_S10000x32_1_0_0_1_n_n).contr.Idx) : ((dot_S10000x32_S32x32_S10000x32_1_0_0_1_n_n).rhsIdx i q 1).val = (i 1).val := by
  unfold DotDims.rhsIdx
  rw [dif_neg (show ¬(1 : Fin S32x32.rank) ∈ (dot_S10000x32_S32x32_S10000x32_1_0_0_1_n_n).rhsBatch by decide), dif_pos (show (1 : Fin S32x32.rank) ∈ (dot_S10000x32_S32x32_S10000x32_1_0_0_1_n_n).rhsNonContracting by decide)]
  rfl

theorem arr_lhs0 (i : S200000x32.Idx) (q : (Cert.ReferenceIdeal.dot_S200000x32_S32x32_S200000x32_1_0_0_1_n_n).contr.Idx) : ((Cert.ReferenceIdeal.dot_S200000x32_S32x32_S200000x32_1_0_0_1_n_n).lhsIdx i q 0).val = (i 0).val := by
  unfold DotDims.lhsIdx
  rw [dif_neg (show ¬(0 : Fin S200000x32.rank) ∈ (Cert.ReferenceIdeal.dot_S200000x32_S32x32_S200000x32_1_0_0_1_n_n).lhsBatch by decide), dif_pos (show (0 : Fin S200000x32.rank) ∈ (Cert.ReferenceIdeal.dot_S200000x32_S32x32_S200000x32_1_0_0_1_n_n).lhsNonContracting by decide)]
  rfl
theorem arr_lhs1 (i : S200000x32.Idx) (q : (Cert.ReferenceIdeal.dot_S200000x32_S32x32_S200000x32_1_0_0_1_n_n).contr.Idx) : ((Cert.ReferenceIdeal.dot_S200000x32_S32x32_S200000x32_1_0_0_1_n_n).lhsIdx i q 1).val = (q ⟨0, by decide⟩).val :=
  (Cert.ReferenceIdeal.dot_S200000x32_S32x32_S200000x32_1_0_0_1_n_n).lhsIdx_val_of_single rfl i q
theorem arr_rhs0 (i : S200000x32.Idx) (q : (Cert.ReferenceIdeal.dot_S200000x32_S32x32_S200000x32_1_0_0_1_n_n).contr.Idx) : ((Cert.ReferenceIdeal.dot_S200000x32_S32x32_S200000x32_1_0_0_1_n_n).rhsIdx i q 0).val = (q ⟨0, by decide⟩).val :=
  (Cert.ReferenceIdeal.dot_S200000x32_S32x32_S200000x32_1_0_0_1_n_n).rhsIdx_val_of_single rfl i q
theorem arr_rhs1 (i : S200000x32.Idx) (q : (Cert.ReferenceIdeal.dot_S200000x32_S32x32_S200000x32_1_0_0_1_n_n).contr.Idx) : ((Cert.ReferenceIdeal.dot_S200000x32_S32x32_S200000x32_1_0_0_1_n_n).rhsIdx i q 1).val = (i 1).val := by
  unfold DotDims.rhsIdx
  rw [dif_neg (show ¬(1 : Fin S32x32.rank) ∈ (Cert.ReferenceIdeal.dot_S200000x32_S32x32_S200000x32_1_0_0_1_n_n).rhsBatch by decide), dif_pos (show (1 : Fin S32x32.rank) ∈ (Cert.ReferenceIdeal.dot_S200000x32_S32x32_S200000x32_1_0_0_1_n_n).rhsNonContracting by decide)]
  rfl

/-- The body's stored value at (r, d): the sum over k of the loaded input block at (r, k) times the weight at (k, d). -/
theorem pay_apply (x0 : Vec Ideal S10000x32 .f32) (x1 : Vec Ideal S32x32 .f32) (j : S10000x32.Idx) :
    k4_pay1 (F := Ideal) x0 x1 j = ∑ k : Fin 32, x0 (lk j k) * x1 (rk j k) := by
  unfold k4_pay1
  try simp only [shapeCast_self]
  refine (Ideal.matmul_constant_zero_apply (dot_S10000x32_S32x32_S10000x32_1_0_0_1_n_n) none _ _ j).trans ?_
  rw [← Equiv.sum_comp (ValueIdx.contrEquiv1 (dot_S10000x32_S32x32_S10000x32_1_0_0_1_n_n) 32 rfl rfl).symm]
  refine Finset.sum_congr rfl fun k _ => ?_
  have hk := ValueIdx.contrEquiv1_symm_val (dot_S10000x32_S32x32_S10000x32_1_0_0_1_n_n) 32 rfl rfl k
  have el : (dot_S10000x32_S32x32_S10000x32_1_0_0_1_n_n).lhsIdx j ((ValueIdx.contrEquiv1 (dot_S10000x32_S32x32_S10000x32_1_0_0_1_n_n) 32 rfl rfl).symm k) = lk j k := funext fun a => Fin.ext (by
    match a with
    | ⟨0, _⟩ => exact blk_lhs0 _ _
    | ⟨1, _⟩ => exact (blk_lhs1 _ _).trans hk)
  have er : (dot_S10000x32_S32x32_S10000x32_1_0_0_1_n_n).rhsIdx j ((ValueIdx.contrEquiv1 (dot_S10000x32_S32x32_S10000x32_1_0_0_1_n_n) 32 rfl rfl).symm k) = rk j k := funext fun a => Fin.ext (by
    match a with
    | ⟨0, _⟩ => exact (blk_rhs0 _ _).trans hk
    | ⟨1, _⟩ => exact blk_rhs1 _ _)
  rw [el, er]
  rfl

/-- The host's product of two whole arrays at (r, d): the same sum. -/
theorem prod_apply (X : FVec Ideal S200000x32 .f32) (W : FVec Ideal S32x32 .f32) (i : S200000x32.Idx) :
    Host.dotGeneral (F := Ideal) (φ₁ := .f32) (φ₂ := .f32) (Cert.ReferenceIdeal.dot_S200000x32_S32x32_S200000x32_1_0_0_1_n_n) none X W i = ∑ k : Fin 32, X (lK i k) * W (rK i k) := by
  simp only [Host.dotGeneral]
  rw [Ideal.dotGeneral_apply]
  rw [← Equiv.sum_comp (ValueIdx.contrEquiv1 (Cert.ReferenceIdeal.dot_S200000x32_S32x32_S200000x32_1_0_0_1_n_n) 32 rfl rfl).symm]
  refine Finset.sum_congr rfl fun k _ => ?_
  have hk := ValueIdx.contrEquiv1_symm_val (Cert.ReferenceIdeal.dot_S200000x32_S32x32_S200000x32_1_0_0_1_n_n) 32 rfl rfl k
  have el : (Cert.ReferenceIdeal.dot_S200000x32_S32x32_S200000x32_1_0_0_1_n_n).lhsIdx i ((ValueIdx.contrEquiv1 (Cert.ReferenceIdeal.dot_S200000x32_S32x32_S200000x32_1_0_0_1_n_n) 32 rfl rfl).symm k) = lK i k := funext fun a => Fin.ext (by
    match a with
    | ⟨0, _⟩ => exact arr_lhs0 _ _
    | ⟨1, _⟩ => exact (arr_lhs1 _ _).trans hk)
  have er : (Cert.ReferenceIdeal.dot_S200000x32_S32x32_S200000x32_1_0_0_1_n_n).rhsIdx i ((ValueIdx.contrEquiv1 (Cert.ReferenceIdeal.dot_S200000x32_S32x32_S200000x32_1_0_0_1_n_n) 32 rfl rfl).symm k) = rK i k := funext fun a => Fin.ext (by
    match a with
    | ⟨0, _⟩ => exact (arr_rhs0 _ _).trans hk
    | ⟨1, _⟩ => exact arr_rhs1 _ _)
  rw [el, er]

/-! ## From blocks to the array -/

/-- The printed index maps over the grid: the input and the output move together along the rows, the weight stays. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- Every row block is some point's. -/
theorem idx_onto : ∀ (q0 : Fin 20) (q1 : Fin 1), ∃ t : Fin cfg4.N, win4_2.index t = ![q0.val + 0, q1.val + 0] :=
  (by decide +kernel : ∀ (q0 : Fin 20) (q1 : Fin 1), ∃ t : Fin grid4.N, win4_2.index t = ![q0.val + 0, q1.val + 0])

/-- An input block's element is the array's element at block index × block size + the coordinate inside the block. -/
theorem read_in (c : Dev nD) (t : Fin cfg4.N) (y : S10000x32.Idx) :
    iblk4 V c 0 t y = V c main_v62 (((cfg4.win 0).blk t).view.emb y) := rfl
theorem read_w (c : Dev nD) (t : Fin cfg4.N) (y : S32x32.Idx) :
    iblk4 V c 1 t y = V c main_arg6 (((cfg4.win 1).blk t).view.emb y) := rfl

/-- What point t writes back is block t of the whole product of the region's two input arrays. -/
theorem flushed_eq (c : Dev nD) (t : Fin cfg4.N) :
    (dat4 V c).flushed 2 t = ((cfg4.win 2).blk t).view.read (Elt Ideal)
      (Host.dotGeneral (F := Ideal) (φ₁ := .f32) (φ₂ := .f32) (Cert.ReferenceIdeal.dot_S200000x32_S32x32_S200000x32_1_0_0_1_n_n) none (V c main_v62 : FVec Ideal S200000x32 .f32) (V c main_arg6 : FVec Ideal S32x32 .f32)) := by
  show (cfg4.win 2).cut (grid4.coords t) ((dat4 V c).after 2 t) = _
  rw [after4_2]
  unfold out4_2
  rw [View.canon_unit_zero hz]
  simp only [View.ld_unit_zero (S := S10000x32) hz, View.ld_unit_zero (S := S32x32) hz]
  obtain ⟨e0, e1, e2, e3, e4⟩ := idx_facts t
  funext j
  show k4_pay1 (F := Ideal) (iblk4 V c 0 t) (iblk4 V c 1 t) j
    = Host.dotGeneral (F := Ideal) (φ₁ := .f32) (φ₂ := .f32) (Cert.ReferenceIdeal.dot_S200000x32_S32x32_S200000x32_1_0_0_1_n_n) none (V c main_v62 : FVec Ideal S200000x32 .f32) (V c main_arg6 : FVec Ideal S32x32 .f32) (((cfg4.win 2).blk t).view.emb j)
  refine (pay_apply (iblk4 V c 0 t) (iblk4 V c 1 t) j).trans ?_
  refine Eq.trans ?_ (prod_apply (V c main_v62) (V c main_arg6) (((cfg4.win 2).blk t).view.emb j)).symm
  refine Finset.sum_congr rfl fun k _ => ?_
  have h0 : iblk4 V c 0 t (lk j k) = V c main_v62 (lK (((cfg4.win 2).blk t).view.emb j) k) := by
    rw [read_in]
    refine congrArg (V c main_v62) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * k.val = k.val; omega
  have h1 : iblk4 V c 1 t (rk j k) = V c main_arg6 (rK (((cfg4.win 2).blk t).view.emb j) k) := by
    rw [read_w]
    refine congrArg (V c main_arg6) (funext fun a => Fin.ext ?_)
    match a with
    | ⟨0, _⟩ => show win4_1.index t (0 : Fin 2) * 32 + 1 * k.val = k.val; omega
    | ⟨1, _⟩ => show win4_1.index t (1 : Fin 2) * 32 + 1 * (j 1).val = win4_2.index t (1 : Fin 2) * 32 + 1 * (j 1).val; omega
  rw [h0, h1]

/-- An index of the output array lies in point t's block iff its row lies in that block's row range. -/
theorem mem_blk (t : Fin cfg4.N) (i : S200000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v63).slice (win4_2.rect t)).set ↔ _
  rw [View.set_slice_whole, Rect.mem_set_unit]
  exact Iff.rfl

/-- The twenty row blocks cover the output array: row r is in block r / 10000. -/
theorem cover (i : S200000x32.Idx) : ∃ t : Fin cfg4.N, (cfg4.win 2).flush t = true ∧ i ∈ ((cfg4.win 2).blk t).view.set := by
  have hi0 : (i 0).val < 200000 := (i 0).isLt
  have hi1 : (i 1).val < 32 := (i 1).isLt
  obtain ⟨t, ht⟩ := idx_onto ⟨(i 0).val / 10000, by omega⟩ ⟨(i 1).val / 32, by omega⟩
  have q0 : win4_2.index t (0 : Fin 2) = (i 0).val / 10000 + 0 := congrFun ht 0
  have q1 : win4_2.index t (1 : Fin 2) = (i 1).val / 32 + 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- The region's output array after the run: the whole product of its two input arrays as the region found them. -/
theorem final (c : Dev nD) : (dat4 V c).arrAt 2 cfg4.N
    = Host.dotGeneral (F := Ideal) (φ₁ := .f32) (φ₂ := .f32) (Cert.ReferenceIdeal.dot_S200000x32_S32x32_S200000x32_1_0_0_1_n_n) none (V c main_v62 : FVec Ideal S200000x32 .f32) (V c main_arg6 : FVec Ideal S32x32 .f32) :=
  (dat4 V c).arrAt_eq_of_cover 2 _ (fun t _ => flushed_eq V c t) cover

end Cert.KernelIdeal.Dense4

end
-- ==== Proof.ChainB.lean ====
/-
  The boundary contents, second part: the second layer's messages, bias and activation, and the third layer's product.
-/
import proofs.«164621_j24919400251445_2_alg».proof.Proof.ChainA
import proofs.«164621_j24919400251445_2_alg».proof.Proof.Act3
import proofs.«164621_j24919400251445_2_alg».proof.Proof.Dense4
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The second layer's messages, bias and activation -/

theorem E8_v60 : W8 m ρ c (Proc.devRef .tc main_v60) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v60) = _
  dsimp only [hostOps3]
  after_results_simp
  rw [E7_v47, E7_v3, E7_v6, E7_v30]
  simp only [Cert.ReferenceIdeal.ReadP.val_main_c_10, Cert.ReferenceIdeal.ReadP.val_main_v50, Cert.ReferenceIdeal.ReadP.val_main_v51, Cert.ReferenceIdeal.ReadP.val_main_c_11, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_cst_12, Cert.ReferenceIdeal.ReadP.val_main_v60, Cert.ReferenceIdeal.ReadP.val_main_v61, Cert.ReferenceIdeal.ReadP.val_main_v62]
  rfl
/-- A length-32 vector reshaped to one row is the vector broadcast into the row. -/
theorem row32a (x : (⟨S32, .f32⟩ : BufTy).Contents (Elt Ideal)) :
    shapeCast S1x32 x shapeCasts_S32_S1x32 = Cert.ReferenceIdeal.ReadP.val_main_v63 (F := Ideal) x :=
  funext fun i => (shapeCast_apply x shapeCasts_S32_S1x32 i (Cert.ReferenceIdeal.ReadP.idx_main_v63 i) (by
    rw [Shape.rowMajor_val_one, Shape.rowMajor_val_two]
    have h0 : (i 0).val < 1 := (i 0).isLt
    show (i 1).val = (i 0).val * 32 + (i 1).val
    omega)).trans (Cert.ReferenceIdeal.ReadP.val_main_v63_apply x i).symm
theorem E8_v61 : W8 m ρ c (Proc.devRef .tc main_v61) = Cert.ReferenceIdeal.ReadP.val_main_v63 (F := Ideal) (m ((c : Thread nD τ).loc main_arg5)) := by
  show StableHlo.after hostOps3 (W7 m ρ c) (Proc.devRef .tc main_v61) = _
  dsimp only [hostOps3]
  after_results_simp
  rw [E7_arg5]
  exact row32a _
theorem E8_v3 : W8 m ρ c (Proc.devRef .tc main_v3) = Cert.ReferenceIdeal.ReadP.val_main_v3 (F := Ideal) (m ((c : Thread nD τ).loc main_arg1)) := by
  show StableHlo.after hostOps3 (W7 m ρ c) (Proc.devRef .tc main_v3) = _
  dsimp only [hostOps3]
  after_results_simp
  exact E7_v3 m ρ c
theorem E8_v6 : W8 m ρ c (Proc.devRef .tc main_v6) = Cert.ReferenceIdeal.ReadP.val_main_v6 (F := Ideal) (m ((c : Thread nD τ).loc main_arg1)) := by
  show StableHlo.after hostOps3 (W7 m ρ c) (Proc.devRef .tc main_v6) = _
  dsimp only [hostOps3]
  after_results_simp
  exact E7_v6 m ρ c
theorem E8_v30 : W8 m ρ c (Proc.devRef .tc main_v30) = Cert.ReferenceIdeal.ReadP.val_main_v30 (F := Ideal) (m ((c : Thread nD τ).loc main_arg1)) := by
  show StableHlo.after hostOps3 (W7 m ρ c) (Proc.devRef .tc main_v30) = _
  dsimp only [hostOps3]
  after_results_simp
  exact E7_v30 m ρ c
theorem E8_arg6 : W8 m ρ c (Proc.devRef .tc main_arg6) = (m ((c : Thread nD τ).loc main_arg6)) := by
  show StableHlo.after hostOps3 (W7 m ρ c) (Proc.devRef .tc main_arg6) = _
  dsimp only [hostOps3]
  after_results_simp
  exact E7_arg6 m ρ c
theorem E8_arg7 : W8 m ρ c (Proc.devRef .tc main_arg7) = (m ((c : Thread nD τ).loc main_arg7)) := by
  show StableHlo.after hostOps3 (W7 m ρ c) (Proc.devRef .tc main_arg7) = _
  dsimp only [hostOps3]
  after_results_simp
  exact E7_arg7 m ρ c
theorem E8_arg8 : W8 m ρ c (Proc.devRef .tc main_arg8) = (m ((c : Thread nD τ).loc main_arg8)) := by
  show StableHlo.after hostOps3 (W7 m ρ c) (Proc.devRef .tc main_arg8) = _
  dsimp only [hostOps3]
  after_results_simp
  exact E7_arg8 m ρ c
theorem E8_arg9 : W8 m ρ c (Proc.devRef .tc main_arg9) = (m ((c : Thread nD τ).loc main_arg9)) := by
  show StableHlo.after hostOps3 (W7 m ρ c) (Proc.devRef .tc main_arg9) = _
  dsimp only [hostOps3]
  after_results_simp
  exact E7_arg9 m ρ c
theorem E9_v62 : W9 m ρ c (Proc.devRef .tc main_v62) = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Cert.KernelIdeal.Act3.final (V8 m ρ) c).trans ?_
  exact congrArg₂ (fun A B => Cert.KernelIdeal.Act3.G A B) (E8_v60 m ρ c) (E8_v61 m ρ c)
theorem E9_v3 : W9 m ρ c (Proc.devRef .tc main_v3) = Cert.ReferenceIdeal.ReadP.val_main_v3 (F := Ideal) (m ((c : Thread nD τ).loc main_arg1)) :=
  (W9_of_ne m ρ c main_v3 (by decide)).trans (E8_v3 m ρ c)
theorem E9_v6 : W9 m ρ c (Proc.devRef .tc main_v6) = Cert.ReferenceIdeal.ReadP.val_main_v6 (F := Ideal) (m ((c : Thread nD τ).loc main_arg1)) :=
  (W9_of_ne m ρ c main_v6 (by decide)).trans (E8_v6 m ρ c)
theorem E9_v30 : W9 m ρ c (Proc.devRef .tc main_v30) = Cert.ReferenceIdeal.ReadP.val_main_v30 (F := Ideal) (m ((c : Thread nD τ).loc main_arg1)) :=
  (W9_of_ne m ρ c main_v30 (by decide)).trans (E8_v30 m ρ c)
theorem E9_arg6 : W9 m ρ c (Proc.devRef .tc main_arg6) = (m ((c : Thread nD τ).loc main_arg6)) :=
  (W9_of_ne m ρ c main_arg6 (by decide)).trans (E8_arg6 m ρ c)
theorem E9_arg7 : W9 m ρ c (Proc.devRef .tc main_arg7) = (m ((c : Thread nD τ).loc main_arg7)) :=
  (W9_of_ne m ρ c main_arg7 (by decide)).trans (E8_arg7 m ρ c)
theorem E9_arg8 : W9 m ρ c (Proc.devRef .tc main_arg8) = (m ((c : Thread nD τ).loc main_arg8)) :=
  (W9_of_ne m ρ c main_arg8 (by decide)).trans (E8_arg8 m ρ c)
theorem E9_arg9 : W9 m ρ c (Proc.devRef .tc main_arg9) = (m ((c : Thread nD τ).loc main_arg9)) :=
  (W9_of_ne m ρ c main_arg9 (by decide)).trans (E8_arg9 m ρ c)

/-! ## The third layer's linear map -/

theorem E10_v63 : W10 m ρ c (Proc.devRef .tc main_v63) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  refine (Cert.KernelIdeal.Dense4.final (V9 m ρ) c).trans ?_
  exact congrArg₂ (fun (X : FVec Ideal S200000x32 .f32) (W : FVec Ideal S32x32 .f32) => Host.dotGeneral (F := Ideal) (φ₁ := .f32) (φ₂ := .f32) (Cert.ReferenceIdeal.dot_S200000x32_S32x32_S200000x32_1_0_0_1_n_n) none X W) (E9_v62 m ρ c) (E9_arg6 m ρ c)
theorem E10_v3 : W10 m ρ c (Proc.devRef .tc main_v3) = Cert.ReferenceIdeal.ReadP.val_main_v3 (F := Ideal) (m ((c : Thread nD τ).loc main_arg1)) :=
  (W10_of_ne m ρ c main_v3 (by decide)).trans (E9_v3 m ρ c)
theorem E10_v6 : W10 m ρ c (Proc.devRef .tc main_v6) = Cert.ReferenceIdeal.ReadP.val_main_v6 (F := Ideal) (m ((c : Thread nD τ).loc main_arg1)) :=
  (W10_of_ne m ρ c main_v6 (by decide)).trans (E9_v6 m ρ c)
theorem E10_v30 : W10 m ρ c (Proc.devRef .tc main_v30) = Cert.ReferenceIdeal.ReadP.val_main_v30 (F := Ideal) (m ((c : Thread nD τ).loc main_arg1)) :=
  (W10_of_ne m ρ c main_v30 (by decide)).trans (E9_v30 m ρ c)
theorem E10_arg7 : W10 m ρ c (Proc.devRef .tc main_arg7) = (m ((c : Thread nD τ).loc main_arg7)) :=
  (W10_of_ne m ρ c main_arg7 (by decide)).trans (E9_arg7 m ρ c)
theorem E10_arg8 : W10 m ρ c (Proc.devRef .tc main_arg8) = (m ((c : Thread nD τ).loc main_arg8)) :=
  (W10_of_ne m ρ c main_arg8 (by decide)).trans (E9_arg8 m ρ c)
theorem E10_arg9 : W10 m ρ c (Proc.devRef .tc main_arg9) = (m ((c : Thread nD τ).loc main_arg9)) :=
  (W10_of_ne m ρ c main_arg9 (by decide)).trans (E9_arg9 m ρ c)

end Cert.KernelIdeal.Chain

end
-- ==== Proof.Act5.lean ====
/-
  Region 5: one layer's bias and activation, blocked over the node axis. Grid point t stages rows 10000·t … 10000·t + 9999 of
  the aggregated [200000, 32] array and the whole [1, 32] bias row, and writes the same rows of the [200000, 32] output: at
  (r, d) the aggregated value plus the bias at d, then the sum itself. The twenty blocks tile the rows, so the output array ends as
  that pointwise function of the whole aggregated array and the bias row.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Act5

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column (j 1): inside a block … -/
abbrev b1 (j : S10000x32.Idx) : S1x32.Idx := fun a => match a with
  | ⟨0, _⟩ => ⟨0, Nat.one_pos⟩
  | ⟨1, _⟩ => ⟨(j 1).val, (j 1).isLt⟩
/-- … and in the whole array. -/
abbrev B1 (i : S200000x32.Idx) : S1x32.Idx := fun a => match a with
  | ⟨0, _⟩ => ⟨0, Nat.one_pos⟩
  | ⟨1, _⟩ => ⟨(i 1).val, (i 1).isLt⟩

/-- The whole-array function the region computes, in the host's operations. -/
abbrev G (A : FVec Ideal S200000x32 .f32) (B : FVec Ideal S1x32 .f32) : FVec Ideal S200000x32 .f32 :=
  addf A (broadcastInDim S200000x32 ![0, 1] Cert.ReferenceIdeal.Facts₀.bcast_S1x32_S200000x32_0_1 B)

/-- The body's stored value at (r, d). -/
theorem pay_apply (x0 : Vec Ideal S10000x32 .f32) (x1 : Vec Ideal S1x32 .f32) (j : S10000x32.Idx) :
    k5_pay1 (F := Ideal) x0 x1 j = FloatOps.addf (F := Ideal) (φ := .f32) (x0 j) (x1 (b1 j)) := by
  unfold k5_pay1
  simp only [shapeCast_self]
  have hb : broadcastTo S10000x32 x1 broadcasts_S1x32_S10000x32 j = x1 (b1 j) :=
    broadcastTo_apply x1 broadcasts_S1x32_S10000x32 j (b1 j) (fun a => match a with
      | ⟨0, _⟩ => by show (0 : Nat) = if (1 : Nat) = 1 then 0 else _; rw [if_pos rfl]
      | ⟨1, _⟩ => by show (j 1).val = if (32 : Nat) = 1 then 0 else _; rw [if_neg (by decide)]; rfl)
  show FloatOps.addf (F := Ideal) (φ := .f32) (x0 j) (broadcastTo S10000x32 x1 broadcasts_S1x32_S10000x32 j) = _
  rw [hb]

/-- The host's term at (r, d): the same function of the aggregated value and the bias entry. -/
theorem G_apply (A : FVec Ideal S200000x32 .f32) (B : FVec Ideal S1x32 .f32) (i : S200000x32.Idx) :
    G A B i = FloatOps.addf (F := Ideal) (φ := .f32) (A i) (B (B1 i)) := by
  have hb : broadcastInDim S200000x32 ![0, 1] Cert.ReferenceIdeal.Facts₀.bcast_S1x32_S200000x32_0_1 B i = B (B1 i) :=
    broadcastInDim_apply _ Cert.ReferenceIdeal.Facts₀.bcast_S1x32_S200000x32_0_1 B i (B1 i) (fun a => match a with
      | ⟨0, _⟩ => by show (0 : Nat) = if (1 : Nat) = 1 then 0 else (i 0).val; rw [if_pos rfl]
      | ⟨1, _⟩ => by show (i 1).val = if (32 : Nat) = 1 then 0 else (i 1).val; rw [if_neg (by decide)])
  show FloatOps.addf (F := Ideal) (φ := .f32) (A i) (broadcastInDim S200000x32 ![0, 1] Cert.ReferenceIdeal.Facts₀.bcast_S1x32_S200000x32_0_1 B i) = _
  rw [hb]

/-! ## From blocks to the array -/

/-- The printed index maps over the grid: the input and the output move together along the rows, the bias row stays. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 :=
  (by decide +kernel : ∀ t : Fin grid5.N, _)

/-- Every row block is some point's. -/
theorem idx_onto : ∀ (q0 : Fin 20) (q1 : Fin 1), ∃ t : Fin cfg5.N, win5_2.index t = ![q0.val + 0, q1.val + 0] :=
  (by decide +kernel : ∀ (q0 : Fin 20) (q1 : Fin 1), ∃ t : Fin grid5.N, win5_2.index t = ![q0.val + 0, q1.val + 0])

/-- An input block's element is the array's element at block index × block size + the coordinate inside the block. -/
theorem read_in (c : Dev nD) (t : Fin cfg5.N) (y : S10000x32.Idx) :
    iblk5 V c 0 t y = V c main_v76 (((cfg5.win 0).blk t).view.emb y) := rfl
theorem read_b (c : Dev nD) (t : Fin cfg5.N) (y : S1x32.Idx) :
    iblk5 V c 1 t y = V c main_v77 (((cfg5.win 1).blk t).view.emb y) := rfl

/-- What point t writes back is block t of the whole-array function of the region's two input arrays. -/
theorem flushed_eq (c : Dev nD) (t : Fin cfg5.N) :
    (dat5 V c).flushed 2 t = ((cfg5.win 2).blk t).view.read (Elt Ideal)
      (G (V c main_v76 : FVec Ideal S200000x32 .f32) (V c main_v77 : FVec Ideal S1x32 .f32)) := by
  show (cfg5.win 2).cut (grid5.coords t) ((dat5 V c).after 2 t) = _
  rw [after5_2]
  unfold out5_2
  rw [View.canon_unit_zero hz]
  simp only [View.ld_unit_zero (S := S10000x32) hz, View.ld_unit_zero (S := S1x32) hz]
  obtain ⟨e0, e1, e2, e3, e4⟩ := idx_facts t
  funext j
  show k5_pay1 (F := Ideal) (iblk5 V c 0 t) (iblk5 V c 1 t) j
    = G (V c main_v76 : FVec Ideal S200000x32 .f32) (V c main_v77 : FVec Ideal S1x32 .f32) (((cfg5.win 2).blk t).view.emb j)
  refine (pay_apply (iblk5 V c 0 t) (iblk5 V c 1 t) j).trans ?_
  refine Eq.trans ?_ (G_apply (V c main_v76) (V c main_v77) (((cfg5.win 2).blk t).view.emb j)).symm
  have h0 : iblk5 V c 0 t j = V c main_v76 (((cfg5.win 2).blk t).view.emb j) := by
    rw [read_in]
    refine congrArg (V c main_v76) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 32 + 1 * (j 1).val = win5_2.index t (1 : Fin 2) * 32 + 1 * (j 1).val; omega
  have h1 : iblk5 V c 1 t (b1 j) = V c main_v77 (B1 (((cfg5.win 2).blk t).view.emb j)) := by
    rw [read_b]
    refine congrArg (V c main_v77) (funext fun a => Fin.ext ?_)
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega
  rw [h0, h1]

/-- An index of the output array lies in point t's block iff its row lies in that block's row range. -/
theorem mem_blk (t : Fin cfg5.N) (i : S200000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v78).slice (win5_2.rect t)).set ↔ _
  rw [View.set_slice_whole, Rect.mem_set_unit]
  exact Iff.rfl

/-- The twenty row blocks cover the output array: row r is in block r / 10000. -/
theorem cover (i : S200000x32.Idx) : ∃ t : Fin cfg5.N, (cfg5.win 2).flush t = true ∧ i ∈ ((cfg5.win 2).blk t).view.set := by
  have hi0 : (i 0).val < 200000 := (i 0).isLt
  have hi1 : (i 1).val < 32 := (i 1).isLt
  obtain ⟨t, ht⟩ := idx_onto ⟨(i 0).val / 10000, by omega⟩ ⟨(i 1).val / 32, by omega⟩
  have q0 : win5_2.index t (0 : Fin 2) = (i 0).val / 10000 + 0 := congrFun ht 0
  have q1 : win5_2.index t (1 : Fin 2) = (i 1).val / 32 + 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 32 ≤ (i 1).val ∧ (i 1).val < win5_2.index t (1 : Fin 2) * 32 + 32; omega

/-- The region's output array after the run: the whole-array function of its two input arrays as the region found them. -/
theorem final (c : Dev nD) : (dat5 V c).arrAt 2 cfg5.N
    = G (V c main_v76 : FVec Ideal S200000x32 .f32) (V c main_v77 : FVec Ideal S1x32 .f32) :=
  (dat5 V c).arrAt_eq_of_cover 2 _ (fun t _ => flushed_eq V c t) cover

end Cert.KernelIdeal.Act5

end
-- ==== Proof.Dense6.lean ====
/-
  Region 6: one layer's linear map, blocked over the node axis. Grid point t stages rows 10000·t … 10000·t + 9999 of the
  [200000, 32] input and the whole [32, 1] weight, and writes rows 10000·t … of the [200000, 1] output with the block's
  matrix product into a zero accumulator. A change of float format is the identity on the extended reals, so entry (r, d)
  of a block's product is the sum over k of input (r, k) times weight (k, d); the twenty blocks tile the rows, hence the
  output array ends as the whole [200000, 32] × [32, 1] product — the same sums the host's dot_general denotes.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Dense6

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products at an index -/

/-- Row (j 0) of the left factor at column k, and row k of the right factor at column (j 1): inside a block … -/
abbrev lk (j : S10000x1.Idx) (k : Fin 32) : S10000x32.Idx := fun a => match a with
  | ⟨0, _⟩ => ⟨(j 0).val, (j 0).isLt⟩
  | ⟨1, _⟩ => ⟨k.val, k.isLt⟩
abbrev rk (j : S10000x1.Idx) (k : Fin 32) : S32x1.Idx := fun a => match a with
  | ⟨0, _⟩ => ⟨k.val, k.isLt⟩
  | ⟨1, _⟩ => ⟨(j 1).val, (j 1).isLt⟩
/-- … and in the whole arrays. -/
abbrev lK (i : S200000x1.Idx) (k : Fin 32) : S200000x32.Idx := fun a => match a with
  | ⟨0, _⟩ => ⟨(i 0).val, (i 0).isLt⟩
  | ⟨1, _⟩ => ⟨k.val, k.isLt⟩
abbrev rK (i : S200000x1.Idx) (k : Fin 32) : S32x1.Idx := fun a => match a with
  | ⟨0, _⟩ => ⟨k.val, k.isLt⟩
  | ⟨1, _⟩ => ⟨(i 1).val, (i 1).isLt⟩

theorem blk_lhs0 (i : S10000x1.Idx) (q : (dot_S10000x32_S32x1_S10000x1_1_0_0_1_n_n).contr.Idx) : ((dot_S10000x32_S32x1_S10000x1_1_0_0_1_n_n).lhsIdx i q 0).val = (i 0).val := by
  unfold DotDims.lhsIdx
  rw [dif_neg (show ¬(0 : Fin S10000x32.rank) ∈ (dot_S10000x32_S32x1_S10000x1_1_0_0_1_n_n).lhsBatch by decide), dif_pos (show (0 : Fin S10000x32.rank) ∈ (dot_S10000x32_S32x1_S10000x1_1_0_0_1_n_n).lhsNonContracting by decide)]
  rfl
theorem blk_lhs1 (i : S10000x1.Idx) (q : (dot_S10000x32_S32x1_S10000x1_1_0_0_1_n_n).contr.Idx) : ((dot_S10000x32_S32x1_S10000x1_1_0_0_1_n_n).lhsIdx i q 1).val = (q ⟨0, by decide⟩).val :=
  (dot_S10000x32_S32x1_S10000x1_1_0_0_1_n_n).lhsIdx_val_of_single rfl i q
theorem blk_rhs0 (i : S10000x1.Idx) (q : (dot_S10000x32_S32x1_S10000x1_1_0_0_1_n_n).contr.Idx) : ((dot_S10000x32_S32x1_S10000x1_1_0_0_1_n_n).rhsIdx i q 0).val = (q ⟨0, by decide⟩).val :=
  (dot_S10000x32_S32x1_S10000x1_1_0_0_1_n_n).rhsIdx_val_of_single rfl i q
theorem blk_rhs1 (i : S10000x1.Idx) (q : (dot_S10000x32_S32x1_S10000x1_1_0_0_1_n_n).contr.Idx) : ((dot_S10000x32_S32x1_S10000x1_1_0_0_1_n_n).rhsIdx i q 1).val = (i 1).val := by
  unfold DotDims.rhsIdx
  rw [dif_neg (show ¬(1 : Fin S32x1.rank) ∈ (dot_S10000x32_S32x1_S10000x1_1_0_0_1_n_n).rhsBatch by decide), dif_pos (show (1 : Fin S32x1.rank) ∈ (dot_S10000x32_S32x1_S10000x1_1_0_0_1_n_n).rhsNonContracting by decide)]
  rfl

theorem arr_lhs0 (i : S200000x1.Idx) (q : (Cert.ReferenceIdeal.dot_S200000x32_S32x1_S200000x1_1_0_0_1_n_n).contr.Idx) : ((Cert.ReferenceIdeal.dot_S200000x32_S32x1_S200000x1_1_0_0_1_n_n).lhsIdx i q 0).val = (i 0).val := by
  unfold DotDims.lhsIdx
  rw [dif_neg (show ¬(0 : Fin S200000x32.rank) ∈ (Cert.ReferenceIdeal.dot_S200000x32_S32x1_S200000x1_1_0_0_1_n_n).lhsBatch by decide), dif_pos (show (0 : Fin S200000x32.rank) ∈ (Cert.ReferenceIdeal.dot_S200000x32_S32x1_S200000x1_1_0_0_1_n_n).lhsNonContracting by decide)]
  rfl
theorem arr_lhs1 (i : S200000x1.Idx) (q : (Cert.ReferenceIdeal.dot_S200000x32_S32x1_S200000x1_1_0_0_1_n_n).contr.Idx) : ((Cert.ReferenceIdeal.dot_S200000x32_S32x1_S200000x1_1_0_0_1_n_n).lhsIdx i q 1).val = (q ⟨0, by decide⟩).val :=
  (Cert.ReferenceIdeal.dot_S200000x32_S32x1_S200000x1_1_0_0_1_n_n).lhsIdx_val_of_single rfl i q
theorem arr_rhs0 (i : S200000x1.Idx) (q : (Cert.ReferenceIdeal.dot_S200000x32_S32x1_S200000x1_1_0_0_1_n_n).contr.Idx) : ((Cert.ReferenceIdeal.dot_S200000x32_S32x1_S200000x1_1_0_0_1_n_n).rhsIdx i q 0).val = (q ⟨0, by decide⟩).val :=
  (Cert.ReferenceIdeal.dot_S200000x32_S32x1_S200000x1_1_0_0_1_n_n).rhsIdx_val_of_single rfl i q
theorem arr_rhs1 (i : S200000x1.Idx) (q : (Cert.ReferenceIdeal.dot_S200000x32_S32x1_S200000x1_1_0_0_1_n_n).contr.Idx) : ((Cert.ReferenceIdeal.dot_S200000x32_S32x1_S200000x1_1_0_0_1_n_n).rhsIdx i q 1).val = (i 1).val := by
  unfold DotDims.rhsIdx
  rw [dif_neg (show ¬(1 : Fin S32x1.rank) ∈ (Cert.ReferenceIdeal.dot_S200000x32_S32x1_S200000x1_1_0_0_1_n_n).rhsBatch by decide), dif_pos (show (1 : Fin S32x1.rank) ∈ (Cert.ReferenceIdeal.dot_S200000x32_S32x1_S200000x1_1_0_0_1_n_n).rhsNonContracting by decide)]
  rfl

/-- The body's stored value at (r, d): the sum over k of the loaded input block at (r, k) times the weight at (k, d). -/
theorem pay_apply (x0 : Vec Ideal S10000x32 .f32) (x1 : Vec Ideal S32x1 .f32) (j : S10000x1.Idx) :
    k6_pay1 (F := Ideal) x0 x1 j = ∑ k : Fin 32, x0 (lk j k) * x1 (rk j k) := by
  unfold k6_pay1
  try simp only [shapeCast_self]
  refine (Ideal.matmul_constant_zero_apply (dot_S10000x32_S32x1_S10000x1_1_0_0_1_n_n) none _ _ j).trans ?_
  rw [← Equiv.sum_comp (ValueIdx.contrEquiv1 (dot_S10000x32_S32x1_S10000x1_1_0_0_1_n_n) 32 rfl rfl).symm]
  refine Finset.sum_congr rfl fun k _ => ?_
  have hk := ValueIdx.contrEquiv1_symm_val (dot_S10000x32_S32x1_S10000x1_1_0_0_1_n_n) 32 rfl rfl k
  have el : (dot_S10000x32_S32x1_S10000x1_1_0_0_1_n_n).lhsIdx j ((ValueIdx.contrEquiv1 (dot_S10000x32_S32x1_S10000x1_1_0_0_1_n_n) 32 rfl rfl).symm k) = lk j k := funext fun a => Fin.ext (by
    match a with
    | ⟨0, _⟩ => exact blk_lhs0 _ _
    | ⟨1, _⟩ => exact (blk_lhs1 _ _).trans hk)
  have er : (dot_S10000x32_S32x1_S10000x1_1_0_0_1_n_n).rhsIdx j ((ValueIdx.contrEquiv1 (dot_S10000x32_S32x1_S10000x1_1_0_0_1_n_n) 32 rfl rfl).symm k) = rk j k := funext fun a => Fin.ext (by
    match a with
    | ⟨0, _⟩ => exact (blk_rhs0 _ _).trans hk
    | ⟨1, _⟩ => exact blk_rhs1 _ _)
  rw [el, er]
  rfl

/-- The host's product of two whole arrays at (r, d): the same sum. -/
theorem prod_apply (X : FVec Ideal S200000x32 .f32) (W : FVec Ideal S32x1 .f32) (i : S200000x1.Idx) :
    Host.dotGeneral (F := Ideal) (φ₁ := .f32) (φ₂ := .f32) (Cert.ReferenceIdeal.dot_S200000x32_S32x1_S200000x1_1_0_0_1_n_n) none X W i = ∑ k : Fin 32, X (lK i k) * W (rK i k) := by
  simp only [Host.dotGeneral]
  rw [Ideal.dotGeneral_apply]
  rw [← Equiv.sum_comp (ValueIdx.contrEquiv1 (Cert.ReferenceIdeal.dot_S200000x32_S32x1_S200000x1_1_0_0_1_n_n) 32 rfl rfl).symm]
  refine Finset.sum_congr rfl fun k _ => ?_
  have hk := ValueIdx.contrEquiv1_symm_val (Cert.ReferenceIdeal.dot_S200000x32_S32x1_S200000x1_1_0_0_1_n_n) 32 rfl rfl k
  have el : (Cert.ReferenceIdeal.dot_S200000x32_S32x1_S200000x1_1_0_0_1_n_n).lhsIdx i ((ValueIdx.contrEquiv1 (Cert.ReferenceIdeal.dot_S200000x32_S32x1_S200000x1_1_0_0_1_n_n) 32 rfl rfl).symm k) = lK i k := funext fun a => Fin.ext (by
    match a with
    | ⟨0, _⟩ => exact arr_lhs0 _ _
    | ⟨1, _⟩ => exact (arr_lhs1 _ _).trans hk)
  have er : (Cert.ReferenceIdeal.dot_S200000x32_S32x1_S200000x1_1_0_0_1_n_n).rhsIdx i ((ValueIdx.contrEquiv1 (Cert.ReferenceIdeal.dot_S200000x32_S32x1_S200000x1_1_0_0_1_n_n) 32 rfl rfl).symm k) = rK i k := funext fun a => Fin.ext (by
    match a with
    | ⟨0, _⟩ => exact (arr_rhs0 _ _).trans hk
    | ⟨1, _⟩ => exact arr_rhs1 _ _)
  rw [el, er]

/-! ## From blocks to the array -/

/-- The printed index maps over the grid: the input and the output move together along the rows, the weight stays. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 :=
  (by decide +kernel : ∀ t : Fin grid6.N, _)

/-- Every row block is some point's. -/
theorem idx_onto : ∀ (q0 : Fin 20) (q1 : Fin 1), ∃ t : Fin cfg6.N, win6_2.index t = ![q0.val + 0, q1.val + 0] :=
  (by decide +kernel : ∀ (q0 : Fin 20) (q1 : Fin 1), ∃ t : Fin grid6.N, win6_2.index t = ![q0.val + 0, q1.val + 0])

/-- An input block's element is the array's element at block index × block size + the coordinate inside the block. -/
theorem read_in (c : Dev nD) (t : Fin cfg6.N) (y : S10000x32.Idx) :
    iblk6 V c 0 t y = V c main_v78 (((cfg6.win 0).blk t).view.emb y) := rfl
theorem read_w (c : Dev nD) (t : Fin cfg6.N) (y : S32x1.Idx) :
    iblk6 V c 1 t y = V c main_arg8 (((cfg6.win 1).blk t).view.emb y) := rfl

/-- What point t writes back is block t of the whole product of the region's two input arrays. -/
theorem flushed_eq (c : Dev nD) (t : Fin cfg6.N) :
    (dat6 V c).flushed 2 t = ((cfg6.win 2).blk t).view.read (Elt Ideal)
      (Host.dotGeneral (F := Ideal) (φ₁ := .f32) (φ₂ := .f32) (Cert.ReferenceIdeal.dot_S200000x32_S32x1_S200000x1_1_0_0_1_n_n) none (V c main_v78 : FVec Ideal S200000x32 .f32) (V c main_arg8 : FVec Ideal S32x1 .f32)) := by
  show (cfg6.win 2).cut (grid6.coords t) ((dat6 V c).after 2 t) = _
  rw [after6_2]
  unfold out6_2
  rw [View.canon_unit_zero hz]
  simp only [View.ld_unit_zero (S := S10000x32) hz, View.ld_unit_zero (S := S32x1) hz]
  obtain ⟨e0, e1, e2, e3, e4⟩ := idx_facts t
  funext j
  show k6_pay1 (F := Ideal) (iblk6 V c 0 t) (iblk6 V c 1 t) j
    = Host.dotGeneral (F := Ideal) (φ₁ := .f32) (φ₂ := .f32) (Cert.ReferenceIdeal.dot_S200000x32_S32x1_S200000x1_1_0_0_1_n_n) none (V c main_v78 : FVec Ideal S200000x32 .f32) (V c main_arg8 : FVec Ideal S32x1 .f32) (((cfg6.win 2).blk t).view.emb j)
  refine (pay_apply (iblk6 V c 0 t) (iblk6 V c 1 t) j).trans ?_
  refine Eq.trans ?_ (prod_apply (V c main_v78) (V c main_arg8) (((cfg6.win 2).blk t).view.emb j)).symm
  refine Finset.sum_congr rfl fun k _ => ?_
  have h0 : iblk6 V c 0 t (lk j k) = V c main_v78 (lK (((cfg6.win 2).blk t).view.emb j) k) := by
    rw [read_in]
    refine congrArg (V c main_v78) (funext fun a => Fin.ext ?_)
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 32 + 1 * k.val = k.val; omega
  have h1 : iblk6 V c 1 t (rk j k) = V c main_arg8 (rK (((cfg6.win 2).blk t).view.emb j) k) := by
    rw [read_w]
    refine congrArg (V c main_arg8) (funext fun a => Fin.ext ?_)
    match a with
    | ⟨0, _⟩ => show win6_1.index t (0 : Fin 2) * 32 + 1 * k.val = k.val; omega
    | ⟨1, _⟩ => show win6_1.index t (1 : Fin 2) * 1 + 1 * (j 1).val = win6_2.index t (1 : Fin 2) * 1 + 1 * (j 1).val; omega
  rw [h0, h1]

/-- An index of the output array lies in point t's block iff its row lies in that block's row range. -/
theorem mem_blk (t : Fin cfg6.N) (i : S200000x1.Idx) :
    i ∈ ((cfg6.win 2).blk t).view.set ↔ ∀ a : Fin 2, win6_2.index t a * S10000x1.size a ≤ (i a).val ∧ (i a).val < win6_2.index t a * S10000x1.size a + S10000x1.size a := by
  show i ∈ ((View.whole main_v79).slice (win6_2.rect t)).set ↔ _
  rw [View.set_slice_whole, Rect.mem_set_unit]
  exact Iff.rfl

/-- The twenty row blocks cover the output array: row r is in block r / 10000. -/
theorem cover (i : S200000x1.Idx) : ∃ t : Fin cfg6.N, (cfg6.win 2).flush t = true ∧ i ∈ ((cfg6.win 2).blk t).view.set := by
  have hi0 : (i 0).val < 200000 := (i 0).isLt
  have hi1 : (i 1).val < 1 := (i 1).isLt
  obtain ⟨t, ht⟩ := idx_onto ⟨(i 0).val / 10000, by omega⟩ ⟨(i 1).val / 1, by omega⟩
  have q0 : win6_2.index t (0 : Fin 2) = (i 0).val / 10000 + 0 := congrFun ht 0
  have q1 : win6_2.index t (1 : Fin 2) = (i 1).val / 1 + 0 := congrFun ht 1
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 1 ≤ (i 1).val ∧ (i 1).val < win6_2.index t (1 : Fin 2) * 1 + 1; omega

/-- The region's output array after the run: the whole product of its two input arrays as the region found them. -/
theorem final (c : Dev nD) : (dat6 V c).arrAt 2 cfg6.N
    = Host.dotGeneral (F := Ideal) (φ₁ := .f32) (φ₂ := .f32) (Cert.ReferenceIdeal.dot_S200000x32_S32x1_S200000x1_1_0_0_1_n_n) none (V c main_v78 : FVec Ideal S200000x32 .f32) (V c main_arg8 : FVec Ideal S32x1 .f32) :=
  (dat6 V c).arrAt_eq_of_cover 2 _ (fun t _ => flushed_eq V c t) cover

end Cert.KernelIdeal.Dense6

end
-- ==== Proof.Act7.lean ====
/-
  Region 7: one layer's bias and activation, blocked over the node axis. Grid point t stages rows 10000·t … 10000·t + 9999 of
  the aggregated [200000, 1] array and the whole [1, 1] bias row, and writes the same rows of the [200000, 1] output: at
  (r, d) the aggregated value plus the bias at d, then the logistic function of the sum, 1 / (1 + e^(-s)), which the host spells as negate, exponential, add one, divide. The twenty blocks tile the rows, so the output array ends as
  that pointwise function of the whole aggregated array and the bias row.
-/
import proofs.«164621_j24919400251445_2_alg».proof.Proof.Gen.KernelIdeal.Frame
import proofs.«164621_j24919400251445_2_alg».proof.ReferenceIdeal
import proofs.«164621_j24919400251445_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Act7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The word 0x3F800000 denotes the real number 1. -/
theorem ofBits_one : Ideal.ofBits .f32 0x3F800000#32 = 1 := by
  simp [Ideal.ofBits, Ideal.ieee, -EReal.coe_mul]; norm_num

/-- The bias row's entry under column (j 1): inside a block … -/
abbrev b1 (j : S10000x1.Idx) : S1x1.Idx := fun a => match a with
  | ⟨0, _⟩ => ⟨0, Nat.one_pos⟩
  | ⟨1, _⟩ => ⟨0, Nat.one_pos⟩
/-- … and in the whole array. -/
abbrev B1 (i : S200000x1.Idx) : S1x1.Idx := fun a => match a with
  | ⟨0, _⟩ => ⟨0, Nat.one_pos⟩
  | ⟨1, _⟩ => ⟨0, Nat.one_pos⟩

/-- The whole-array function the region computes, in the host's operations. -/
abbrev G (A : FVec Ideal S200000x1 .f32) (B : FVec Ideal S1x1 .f32) : FVec Ideal S200000x1 .f32 :=
  Host.divf (broadcastInDim S200000x1 ![] Cert.ReferenceIdeal.Facts₀.bcast_S_S200000x1 (constant (F := Ideal) S_ .f32 0x3F800000#32)) (addf (broadcastInDim S200000x1 ![] Cert.ReferenceIdeal.Facts₀.bcast_S_S200000x1 (constant (F := Ideal) S_ .f32 0x3F800000#32)) (Host.exp (Host.negf (addf A (broadcastInDim S200000x1 ![0, 1] Cert.ReferenceIdeal.Facts₀.bcast_S1x1_S200000x1_0_1 B)))))

/-- The body's stored value at (r, d). -/
theorem pay_apply (x0 : Vec Ideal S10000x1 .f32) (x1 : Vec Ideal S1x1 .f32) (j : S10000x1.Idx) :
    k7_pay1 (F := Ideal) x0 x1 j = FloatOps.logistic (FloatOps.addf (F := Ideal) (φ := .f32) (x0 j) (x1 (b1 j))) := by
  unfold k7_pay1
  simp only [shapeCast_self]
  have hb : broadcastTo S10000x1 x1 broadcasts_S1x1_S10000x1 j = x1 (b1 j) :=
    broadcastTo_apply x1 broadcasts_S1x1_S10000x1 j (b1 j) (fun a => match a with
      | ⟨0, _⟩ => by show (0 : Nat) = if (1 : Nat) = 1 then 0 else _; rw [if_pos rfl]
      | ⟨1, _⟩ => by show (0 : Nat) = if (1 : Nat) = 1 then 0 else _; rw [if_pos rfl])
  show FloatOps.logistic (FloatOps.addf (F := Ideal) (φ := .f32) (x0 j) (broadcastTo S10000x1 x1 broadcasts_S1x1_S10000x1 j)) = _
  rw [hb]

/-- The host's term at (r, d): the same function of the aggregated value and the bias entry. -/
theorem G_apply (A : FVec Ideal S200000x1 .f32) (B : FVec Ideal S1x1 .f32) (i : S200000x1.Idx) :
    G A B i = FloatOps.logistic (FloatOps.addf (F := Ideal) (φ := .f32) (A i) (B (B1 i))) := by
  have hb : broadcastInDim S200000x1 ![0, 1] Cert.ReferenceIdeal.Facts₀.bcast_S1x1_S200000x1_0_1 B i = B (B1 i) :=
    broadcastInDim_apply _ Cert.ReferenceIdeal.Facts₀.bcast_S1x1_S200000x1_0_1 B i (B1 i) (fun a => match a with
      | ⟨0, _⟩ => by show (0 : Nat) = if (1 : Nat) = 1 then 0 else (i 0).val; rw [if_pos rfl]
      | ⟨1, _⟩ => by show (0 : Nat) = if (1 : Nat) = 1 then 0 else (i 1).val; rw [if_pos rfl])
  show FloatOps.hostDivf (Ideal.ofBits .f32 0x3F800000#32) (FloatOps.addf (F := Ideal) (φ := .f32) (Ideal.ofBits .f32 0x3F800000#32) (FloatOps.hostUnary .exp (FloatOps.hostNegf (FloatOps.addf (F := Ideal) (φ := .f32) (A i) (broadcastInDim S200000x1 ![0, 1] Cert.ReferenceIdeal.Facts₀.bcast_S1x1_S200000x1_0_1 B i))))) = _
  rw [hb, ofBits_one]
  rfl

/-! ## From blocks to the array -/

/-- The printed index maps over the grid: the input and the output move together along the rows, the bias row stays. -/
theorem idx_facts : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 :=
  (by decide +kernel : ∀ t : Fin grid7.N, _)

/-- Every row block is some point's. -/
theorem idx_onto : ∀ (q0 : Fin 20) (q1 : Fin 1), ∃ t : Fin cfg7.N, win7_2.index t = ![q0.val + 0, q1.val + 0] :=
  (by decide +kernel : ∀ (q0 : Fin 20) (q1 : Fin 1), ∃ t : Fin grid7.N, win7_2.index t = ![q0.val + 0, q1.val + 0])

/-- An input block's element is the array's element at block index × block size + the coordinate inside the block. -/
theorem read_in (c : Dev nD) (t : Fin cfg7.N) (y : S10000x1.Idx) :
    iblk7 V c 0 t y = V c main_v91 (((cfg7.win 0).blk t).view.emb y) := rfl
theorem read_b (c : Dev nD) (t : Fin cfg7.N) (y : S1x1.Idx) :
    iblk7 V c 1 t y = V c main_v92 (((cfg7.win 1).blk t).view.emb y) := rfl

/-- What point t writes back is block t of the whole-array function of the region's two input arrays. -/
theorem flushed_eq (c : Dev nD) (t : Fin cfg7.N) :
    (dat7 V c).flushed 2 t = ((cfg7.win 2).blk t).view.read (Elt Ideal)
      (G (V c main_v91 : FVec Ideal S200000x1 .f32) (V c main_v92 : FVec Ideal S1x1 .f32)) := by
  show (cfg7.win 2).cut (grid7.coords t) ((dat7 V c).after 2 t) = _
  rw [after7_2]
  unfold out7_2
  rw [View.canon_unit_zero hz]
  simp only [View.ld_unit_zero (S := S10000x1) hz, View.ld_unit_zero (S := S1x1) hz]
  obtain ⟨e0, e1, e2, e3, e4⟩ := idx_facts t
  funext j
  show k7_pay1 (F := Ideal) (iblk7 V c 0 t) (iblk7 V c 1 t) j
    = G (V c main_v91 : FVec Ideal S200000x1 .f32) (V c main_v92 : FVec Ideal S1x1 .f32) (((cfg7.win 2).blk t).view.emb j)
  refine (pay_apply (iblk7 V c 0 t) (iblk7 V c 1 t) j).trans ?_
  refine Eq.trans ?_ (G_apply (V c main_v91) (V c main_v92) (((cfg7.win 2).blk t).view.emb j)).symm
  have h0 : iblk7 V c 0 t j = V c main_v91 (((cfg7.win 2).blk t).view.emb j) := by
    rw [read_in]
    refine congrArg (V c main_v91) (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 1 + 1 * (j 1).val = win7_2.index t (1 : Fin 2) * 1 + 1 * (j 1).val; omega
  have h1 : iblk7 V c 1 t (b1 j) = V c main_v92 (B1 (((cfg7.win 2).blk t).view.emb j)) := by
    rw [read_b]
    refine congrArg (V c main_v92) (funext fun a => Fin.ext ?_)
    match a with
    | ⟨0, _⟩ => show win7_1.index t (0 : Fin 2) * 1 + 1 * 0 = 0; omega
    | ⟨1, _⟩ => show win7_1.index t (1 : Fin 2) * 1 + 1 * 0 = 0; omega
  rw [h0, h1]

/-- An index of the output array lies in point t's block iff its row lies in that block's row range. -/
theorem mem_blk (t : Fin cfg7.N) (i : S200000x1.Idx) :
    i ∈ ((cfg7.win 2).blk t).view.set ↔ ∀ a : Fin 2, win7_2.index t a * S10000x1.size a ≤ (i a).val ∧ (i a).val < win7_2.index t a * S10000x1.size a + S10000x1.size a := by
  show i ∈ ((View.whole main_v93).slice (win7_2.rect t)).set ↔ _
  rw [View.set_slice_whole, Rect.mem_set_unit]
  exact Iff.rfl

/-- The twenty row blocks cover the output array: row r is in block r / 10000. -/
theorem cover (i : S200000x1.Idx) : ∃ t : Fin cfg7.N, (cfg7.win 2).flush t = true ∧ i ∈ ((cfg7.win 2).blk t).view.set := by
  have hi0 : (i 0).val < 200000 := (i 0).isLt
  have hi1 : (i 1).val < 1 := (i 1).isLt
  obtain ⟨t, ht⟩ := idx_onto ⟨(i 0).val / 10000, by omega⟩ ⟨(i 1).val / 1, by omega⟩
  have q0 : win7_2.index t (0 : Fin 2) = (i 0).val / 10000 + 0 := congrFun ht 0
  have q1 : win7_2.index t (1 : Fin 2) = (i 1).val / 1 + 0 := congrFun ht 1
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 1 ≤ (i 1).val ∧ (i 1).val < win7_2.index t (1 : Fin 2) * 1 + 1; omega

/-- The region's output array after the run: the whole-array function of its two input arrays as the region found them. -/
theorem final (c : Dev nD) : (dat7 V c).arrAt 2 cfg7.N
    = G (V c main_v91 : FVec Ideal S200000x1 .f32) (V c main_v92 : FVec Ideal S1x1 .f32) :=
  (dat7 V c).arrAt_eq_of_cover 2 _ (fun t _ => flushed_eq V c t) cover

end Cert.KernelIdeal.Act7

end
-- ==== Proof.ChainC.lean ====
/-
  The boundary contents, third part: the third layer's messages and bias (no activation), the fourth layer's product,
  its messages, bias and logistic activation. The last boundary's result buffer holds the reference's last stage of the
  ten argument arrays.
-/
import proofs.«164621_j24919400251445_2_alg».proof.Proof.ChainB
import proofs.«164621_j24919400251445_2_alg».proof.Proof.Act5
import proofs.«164621_j24919400251445_2_alg».proof.Proof.Dense6
import proofs.«164621_j24919400251445_2_alg».proof.Proof.Act7
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The third layer's messages and bias -/

theorem E11_v76 : W11 m ρ c (Proc.devRef .tc main_v76) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v76) = _
  dsimp only [hostOps5]
  after_results_simp
  rw [E10_v63, E10_v3, E10_v6, E10_v30]
  simp only [Cert.ReferenceIdeal.ReadP.val_main_c_13, Cert.ReferenceIdeal.ReadP.val_main_v68, Cert.ReferenceIdeal.ReadP.val_main_v69, Cert.ReferenceIdeal.ReadP.val_main_c_14, Cert.ReferenceIdeal.ReadP.val_main_v70, Cert.ReferenceIdeal.ReadP.val_main_v71, Cert.ReferenceIdeal.ReadP.val_main_v72, Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_v77, Cert.ReferenceIdeal.ReadP.val_main_cst_15, Cert.ReferenceIdeal.ReadP.val_main_v78, Cert.ReferenceIdeal.ReadP.val_main_v79, Cert.ReferenceIdeal.ReadP.val_main_v80]
  rfl
/-- A length-32 vector reshaped to one row is the vector broadcast into the row. -/
theorem row32b (x : (⟨S32, .f32⟩ : BufTy).Contents (Elt Ideal)) :
    shapeCast S1x32 x shapeCasts_S32_S1x32 = Cert.ReferenceIdeal.ReadP.val_main_v81 (F := Ideal) x :=
  funext fun i => (shapeCast_apply x shapeCasts_S32_S1x32 i (Cert.ReferenceIdeal.ReadP.idx_main_v81 i) (by
    rw [Shape.rowMajor_val_one, Shape.rowMajor_val_two]
    have h0 : (i 0).val < 1 := (i 0).isLt
    show (i 1).val = (i 0).val * 32 + (i 1).val
    omega)).trans (Cert.ReferenceIdeal.ReadP.val_main_v81_apply x i).symm
theorem E11_v77 : W11 m ρ c (Proc.devRef .tc main_v77) = Cert.ReferenceIdeal.ReadP.val_main_v81 (F := Ideal) (m ((c : Thread nD τ).loc main_arg7)) := by
  show StableHlo.after hostOps5 (W10 m ρ c) (Proc.devRef .tc main_v77) = _
  dsimp only [hostOps5]
  after_results_simp
  rw [E10_arg7]
  exact row32b _
theorem E11_v3 : W11 m ρ c (Proc.devRef .tc main_v3) = Cert.ReferenceIdeal.ReadP.val_main_v3 (F := Ideal) (m ((c : Thread nD τ).loc main_arg1)) := by
  show StableHlo.after hostOps5 (W10 m ρ c) (Proc.devRef .tc main_v3) = _
  dsimp only [hostOps5]
  after_results_simp
  exact E10_v3 m ρ c
theorem E11_v6 : W11 m ρ c (Proc.devRef .tc main_v6) = Cert.ReferenceIdeal.ReadP.val_main_v6 (F := Ideal) (m ((c : Thread nD τ).loc main_arg1)) := by
  show StableHlo.after hostOps5 (W10 m ρ c) (Proc.devRef .tc main_v6) = _
  dsimp only [hostOps5]
  after_results_simp
  exact E10_v6 m ρ c
theorem E11_v30 : W11 m ρ c (Proc.devRef .tc main_v30) = Cert.ReferenceIdeal.ReadP.val_main_v30 (F := Ideal) (m ((c : Thread nD τ).loc main_arg1)) := by
  show StableHlo.after hostOps5 (W10 m ρ c) (Proc.devRef .tc main_v30) = _
  dsimp only [hostOps5]
  after_results_simp
  exact E10_v30 m ρ c
theorem E11_arg8 : W11 m ρ c (Proc.devRef .tc main_arg8) = (m ((c : Thread nD τ).loc main_arg8)) := by
  show StableHlo.after hostOps5 (W10 m ρ c) (Proc.devRef .tc main_arg8) = _
  dsimp only [hostOps5]
  after_results_simp
  exact E10_arg8 m ρ c
theorem E11_arg9 : W11 m ρ c (Proc.devRef .tc main_arg9) = (m ((c : Thread nD τ).loc main_arg9)) := by
  show StableHlo.after hostOps5 (W10 m ρ c) (Proc.devRef .tc main_arg9) = _
  dsimp only [hostOps5]
  after_results_simp
  exact E10_arg9 m ρ c
theorem E12_v78 : W12 m ρ c (Proc.devRef .tc main_v78) = Cert.ReferenceIdeal.ReadP.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (Cert.KernelIdeal.Act5.final (V11 m ρ) c).trans ?_
  exact congrArg₂ (fun A B => Cert.KernelIdeal.Act5.G A B) (E11_v76 m ρ c) (E11_v77 m ρ c)
theorem E12_v3 : W12 m ρ c (Proc.devRef .tc main_v3) = Cert.ReferenceIdeal.ReadP.val_main_v3 (F := Ideal) (m ((c : Thread nD τ).loc main_arg1)) :=
  (W12_of_ne m ρ c main_v3 (by decide)).trans (E11_v3 m ρ c)
theorem E12_v6 : W12 m ρ c (Proc.devRef .tc main_v6) = Cert.ReferenceIdeal.ReadP.val_main_v6 (F := Ideal) (m ((c : Thread nD τ).loc main_arg1)) :=
  (W12_of_ne m ρ c main_v6 (by decide)).trans (E11_v6 m ρ c)
theorem E12_v30 : W12 m ρ c (Proc.devRef .tc main_v30) = Cert.ReferenceIdeal.ReadP.val_main_v30 (F := Ideal) (m ((c : Thread nD τ).loc main_arg1)) :=
  (W12_of_ne m ρ c main_v30 (by decide)).trans (E11_v30 m ρ c)
theorem E12_arg8 : W12 m ρ c (Proc.devRef .tc main_arg8) = (m ((c : Thread nD τ).loc main_arg8)) :=
  (W12_of_ne m ρ c main_arg8 (by decide)).trans (E11_arg8 m ρ c)
theorem E12_arg9 : W12 m ρ c (Proc.devRef .tc main_arg9) = (m ((c : Thread nD τ).loc main_arg9)) :=
  (W12_of_ne m ρ c main_arg9 (by decide)).trans (E11_arg9 m ρ c)

/-! ## The fourth layer -/

theorem E13_v79 : W13 m ρ c (Proc.devRef .tc main_v79) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ?_
  refine (Cert.KernelIdeal.Dense6.final (V12 m ρ) c).trans ?_
  exact congrArg₂ (fun (X : FVec Ideal S200000x32 .f32) (W : FVec Ideal S32x1 .f32) => Host.dotGeneral (F := Ideal) (φ₁ := .f32) (φ₂ := .f32) (Cert.ReferenceIdeal.dot_S200000x32_S32x1_S200000x1_1_0_0_1_n_n) none X W) (E12_v78 m ρ c) (E12_arg8 m ρ c)
theorem E13_v3 : W13 m ρ c (Proc.devRef .tc main_v3) = Cert.ReferenceIdeal.ReadP.val_main_v3 (F := Ideal) (m ((c : Thread nD τ).loc main_arg1)) :=
  (W13_of_ne m ρ c main_v3 (by decide)).trans (E12_v3 m ρ c)
theorem E13_v6 : W13 m ρ c (Proc.devRef .tc main_v6) = Cert.ReferenceIdeal.ReadP.val_main_v6 (F := Ideal) (m ((c : Thread nD τ).loc main_arg1)) :=
  (W13_of_ne m ρ c main_v6 (by decide)).trans (E12_v6 m ρ c)
theorem E13_v30 : W13 m ρ c (Proc.devRef .tc main_v30) = Cert.ReferenceIdeal.ReadP.val_main_v30 (F := Ideal) (m ((c : Thread nD τ).loc main_arg1)) :=
  (W13_of_ne m ρ c main_v30 (by decide)).trans (E12_v30 m ρ c)
theorem E13_arg9 : W13 m ρ c (Proc.devRef .tc main_arg9) = (m ((c : Thread nD τ).loc main_arg9)) :=
  (W13_of_ne m ρ c main_arg9 (by decide)).trans (E12_arg9 m ρ c)
theorem E14_v91 : W14 m ρ c (Proc.devRef .tc main_v91) = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W13 m ρ c) (Proc.devRef .tc main_v91) = _
  dsimp only [hostOps7]
  after_results_simp
  rw [E13_v79, E13_v3, E13_v6, E13_v30]
  simp only [Cert.ReferenceIdeal.ReadP.val_main_c_16, Cert.ReferenceIdeal.ReadP.val_main_v85, Cert.ReferenceIdeal.ReadP.val_main_v86, Cert.ReferenceIdeal.ReadP.val_main_c_17, Cert.ReferenceIdeal.ReadP.val_main_v87, Cert.ReferenceIdeal.ReadP.val_main_v88, Cert.ReferenceIdeal.ReadP.val_main_v89, Cert.ReferenceIdeal.ReadP.val_main_v90, Cert.ReferenceIdeal.ReadP.val_main_v91, Cert.ReferenceIdeal.ReadP.val_main_v92, Cert.ReferenceIdeal.ReadP.val_main_v93, Cert.ReferenceIdeal.ReadP.val_main_cst_18, Cert.ReferenceIdeal.ReadP.val_main_v94, Cert.ReferenceIdeal.ReadP.val_main_v95, Cert.ReferenceIdeal.ReadP.val_main_v96]
  rfl
/-- A length-1 vector reshaped to a 1 × 1 array is the vector broadcast into it. -/
theorem row1 (x : (⟨S1, .f32⟩ : BufTy).Contents (Elt Ideal)) :
    shapeCast S1x1 x shapeCasts_S1_S1x1 = Cert.ReferenceIdeal.ReadP.val_main_v97 (F := Ideal) x :=
  funext fun i => (shapeCast_apply x shapeCasts_S1_S1x1 i (Cert.ReferenceIdeal.ReadP.idx_main_v97 i) (by
    rw [Shape.rowMajor_val_one, Shape.rowMajor_val_two]
    have h0 : (i 0).val < 1 := (i 0).isLt
    have h1 : (i 1).val < 1 := (i 1).isLt
    show (0 : Nat) = (i 0).val * 1 + (i 1).val
    omega)).trans (Cert.ReferenceIdeal.ReadP.val_main_v97_apply x i).symm
theorem E14_v92 : W14 m ρ c (Proc.devRef .tc main_v92) = Cert.ReferenceIdeal.ReadP.val_main_v97 (F := Ideal) (m ((c : Thread nD τ).loc main_arg9)) := by
  show StableHlo.after hostOps7 (W13 m ρ c) (Proc.devRef .tc main_v92) = _
  dsimp only [hostOps7]
  after_results_simp
  rw [E13_arg9]
  exact row1 _
theorem E15_v93 : W15 m ρ c (Proc.devRef .tc main_v93) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W15_arr m ρ c 2).trans ?_
  refine (Cert.KernelIdeal.Act7.final (V14 m ρ) c).trans ?_
  exact congrArg₂ (fun A B => Cert.KernelIdeal.Act7.G A B) (E14_v91 m ρ c) (E14_v92 m ρ c)

end Cert.KernelIdeal.Chain

end
-- ==== Proof.lean ====
/-
  The certificate of a four-layer graph convolution against its jnp reference, on the extended reals.
  Both programs add a self loop to every node, count in-degrees with a scatter-add of ones, weight message e by
  deg(src e)^(-1/2) · deg(dst e)^(-1/2), and then four times: multiply the node features by a weight matrix, gather the rows at the
  message sources, scale them by the message weights, scatter-add them at the message destinations, add a bias, and apply
  relu, relu, nothing, and the logistic function. The gathers and scatters are the same host operations in both programs.
  The kernel computes each matrix product and each bias-and-activation in blocks of 10000 rows. A block's matrix product
  into a zero accumulator is, entry by entry, the same finite sum the host's dot_general denotes, a change of float format
  being the identity on the extended reals, and the blocks tile the rows; the logistic function is 1 / (1 + e^(-x)), the
  expression the reference spells. So each buffer of the kernel holds the same function of the ten argument arrays as the
  reference's stage of the same operation, and the two results agree. No law used needs the inputs finite: only the two
  sides' sums being the same sums.
  The three frames are the generated frame certificates of the two kernel programs and the reference's run with its result
  dropped; the idealization rewrote nothing, so the preserves conjunct is trivial.
-/
import proofs.«164621_j24919400251445_2_alg».proof.Defs
import proofs.«164621_j24919400251445_2_alg».proof.Proof.Gen.Kernel
import proofs.«164621_j24919400251445_2_alg».proof.Proof.Gen.Kernel.Skeleton
import proofs.«164621_j24919400251445_2_alg».proof.Proof.Gen.Kernel.Launch
import proofs.«164621_j24919400251445_2_alg».proof.Proof.Gen.Kernel.Points
import proofs.«164621_j24919400251445_2_alg».proof.Proof.Gen.Kernel.Frame
import proofs.«164621_j24919400251445_2_alg».proof.Proof.Gen.KernelIdeal
import proofs.«164621_j24919400251445_2_alg».proof.Proof.Gen.KernelIdeal.Skeleton
import proofs.«164621_j24919400251445_2_alg».proof.Proof.Gen.KernelIdeal.Launch
import proofs.«164621_j24919400251445_2_alg».proof.Proof.Gen.KernelIdeal.Points
import proofs.«164621_j24919400251445_2_alg».proof.Proof.Gen.KernelIdeal.Frame
import proofs.«164621_j24919400251445_2_alg».proof.Proof.Gen.ReferenceIdeal
import proofs.«164621_j24919400251445_2_alg».proof.Proof.Gen.Pre_finite_inputs
import proofs.«164621_j24919400251445_2_alg».proof.Proof.KernelRun
import proofs.«164621_j24919400251445_2_alg».proof.Proof.RefRunP
import proofs.«164621_j24919400251445_2_alg».proof.Proof.RefReadP
import proofs.«164621_j24919400251445_2_alg».proof.Proof.ChainC
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result buffer at the reference's last stage of the argument arrays. -/
theorem algebraic : Cert.algebraic_KernelIdeal_ReferenceIdeal := by
  intro m ρ m' ρ' _ hagree
  refine ⟨fun c => Cert.ReferenceIdeal.ReadP.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.E15_v93 m ρ c), (h c).2⟩)
      (Cert.KernelIdeal.RunValue.run_result m ρ)
  · refine (θ_run Cert.ReferenceIdeal.defs _ _).mono (fun _ h c => ⟨?_, (h c).2⟩)
      (Cert.ReferenceIdeal.ValueP.run (F := Ideal) m' ρ')
    obtain ⟨a0, a1, a2, a3, a4, a5, a6, a7, a8, a9⟩ := hagree c
    rw [(h c).1, Cert.ReferenceIdeal.ReadP.val_main_v105_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
